-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1024x768 : Shape := ⟨3, ![16, 1024, 768]⟩
abbrev S768x768 : Shape := ⟨2, ![768, 768]⟩
abbrev S768 : Shape := ⟨1, ![768]⟩
abbrev S_ : Shape := ⟨0, ![]⟩

class Facts : Prop where
  bcast_S_S16x1024x768 : S_.BroadcastsInDim S16x1024x768 (![] : Fin 0 → Fin S16x1024x768.rank)
  reducesTo_S16x1024x768_S_d0_1_2 : S16x1024x768.ReducesTo [0, 1, 2] S_
  h_S_ : 0 < S_.numel
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_

variable [Facts]

def fn_part1 {F : FTy → Type} [FloatOps F] (main_arg4 : FVec F S768 .f32) (main_arg5 : FVec F S768x768 .f32) (main_arg6 : FVec F S768 .f32) (main_v13 : IVec S_ 1) (main_v16 : IVec S768x768 1) : IVec S_ 1 :=
  let main_c_5 : IVec S_ 1 := constantI S_ 1 1#1
  let main_v17 : IVec S_ 1 := (fun x v => Host.reduce IntOp.andi x v reducesTo_S768x768_S_d0_1 h_S_) main_v16 main_c_5
  let main_v18 : IVec S_ 1 := andi main_v13 main_v17
  let main_v19 : FVec F S768 .f32 := Host.absf main_arg4
  let main_cst_6 : FVec F S_ .f32 := constant S_ .f32 0x7F800000#32
  let main_v20 : FVec F S768 .f32 := broadcastInDim S768 ![] bcast_S_S768 main_cst_6
  let main_v21 : IVec S768 1 := cmpf .olt main_v19 main_v20
  let main_c_7 : IVec S_ 1 := constantI S_ 1 1#1
  let main_v22 : IVec S_ 1 := (fun x v => Host.reduce IntOp.andi x v reducesTo_S768_S_d0 h_S_) main_v21 main_c_7
  let main_v23 : IVec S_ 1 := andi main_v18 main_v22
  let main_v24 : FVec F S768x768 .f32 := Host.absf main_arg5
  let main_cst_8 : FVec F S_ .f32 := constant S_ .f32 0x7F800000#32
  let main_v25 : FVec F S768x768 .f32 := broadcastInDim S768x768 ![] bcast_S_S768x768 main_cst_8
  let main_v26 : IVec S768x768 1 := cmpf .olt main_v24 main_v25
  let main_c_9 : IVec S_ 1 := constantI S_ 1 1#1
  let main_v27 : IVec S_ 1 := (fun x v => Host.reduce IntOp.andi x v reducesTo_S768x768_S_d0_1 h_S_) main_v26 main_c_9
  let main_v28 : IVec S_ 1 := andi main_v23 main_v27
  let main_v29 : FVec F S768 .f32 := Host.absf main_arg6
  let main_cst_10 : FVec F S_ .f32 := constant S_ .f32 0x7F800000#32
  let main_v30 : FVec F S768 .f32 := broadcastInDim S768 ![] bcast_S_S768 main_cst_10
  let main_v31 : IVec S768 1 := cmpf .olt main_v29 main_v30
  let main_c_11 : IVec S_ 1 := constantI S_ 1 1#1
  let main_v32 : IVec S_ 1 := (fun x v => Host.reduce IntOp.andi x v reducesTo_S768_S_d0 h_S_) main_v31 main_c_11
  let main_v33 : IVec S_ 1 := andi main_v28 main_v32
  main_v33

def fn {F : FTy → Type} [FloatOps F] (main_arg0 : FVec F S16x1024x768 .f32) (main_arg1 : FVec F S768x768 .f32) (main_arg2 : FVec F S768 .f32) (main_arg3 : FVec F S768x768 .f32) (main_arg4 : FVec F S768 .f32) (main_arg5 : FVec F S768x768 .f32) (main_arg6 : FVec F S768 .f32) : IVec S_ 1 :=
  let main_v0 : FVec F S16x1024x768 .f32 := Host.absf main_arg0
  let main_cst : FVec F S_ .f32 := constant S_ .f32 0x7F800000#32
  let main_v1 : FVec F S16x1024x768 .f32 := broadcastInDim S16x1024x768 ![] bcast_S_S16x1024x768 main_cst
  let main_v2 : IVec S16x1024x768 1 := cmpf .olt main_v0 main_v1
  let main_c : IVec S_ 1 := constantI S_ 1 1#1
  let main_v3 : IVec S_ 1 := (fun x v => Host.reduce IntOp.andi x v reducesTo_S16x1024x768_S_d0_1_2 h_S_) main_v2 main_c
  let main_v4 : FVec F S768x768 .f32 := Host.absf main_arg1
  let main_cst_0 : FVec F S_ .f32 := constant S_ .f32 0x7F800000#32
  let main_v5 : FVec F S768x768 .f32 := broadcastInDim S768x768 ![] bcast_S_S768x768 main_cst_0
  let main_v6 : IVec S768x768 1 := cmpf .olt main_v4 main_v5
  let main_c_1 : IVec S_ 1 := constantI S_ 1 1#1
  let main_v7 : IVec S_ 1 := (fun x v => Host.reduce IntOp.andi x v reducesTo_S768x768_S_d0_1 h_S_) main_v6 main_c_1
  let main_v8 : IVec S_ 1 := andi main_v3 main_v7
  let main_v9 : FVec F S768 .f32 := Host.absf main_arg2
  let main_cst_2 : FVec F S_ .f32 := constant S_ .f32 0x7F800000#32
  let main_v10 : FVec F S768 .f32 := broadcastInDim S768 ![] bcast_S_S768 main_cst_2
  let main_v11 : IVec S768 1 := cmpf .olt main_v9 main_v10
  let main_c_3 : IVec S_ 1 := constantI S_ 1 1#1
  let main_v12 : IVec S_ 1 := (fun x v => Host.reduce IntOp.andi x v reducesTo_S768_S_d0 h_S_) main_v11 main_c_3
  let main_v13 : IVec S_ 1 := andi main_v8 main_v12
  let main_v14 : FVec F S768x768 .f32 := Host.absf main_arg3
  let main_cst_4 : FVec F S_ .f32 := constant S_ .f32 0x7F800000#32
  let main_v15 : FVec F S768x768 .f32 := broadcastInDim S768x768 ![] bcast_S_S768x768 main_cst_4
  let main_v16 : IVec S768x768 1 := cmpf .olt main_v14 main_v15
  fn_part1 (F := F) main_arg4 main_arg5 main_arg6 main_v13 main_v16
-- ==== Kernel.lean ====
abbrev S16x1024x768 : Shape := ⟨3, ![16, 1024, 768]⟩
abbrev S768x768 : Shape := ⟨2, ![768, 768]⟩
abbrev S768 : Shape := ⟨1, ![768]⟩
abbrev S1x768 : Shape := ⟨2, ![1, 768]⟩
abbrev S16x768x1024 : Shape := ⟨3, ![16, 768, 1024]⟩
abbrev S1x1024x768 : Shape := ⟨3, ![1, 1024, 768]⟩
abbrev S1x768x1024 : Shape := ⟨3, ![1, 768, 1024]⟩
abbrev S1024x768 : Shape := ⟨2, ![1024, 768]⟩
abbrev S256x768 : Shape := ⟨2, ![256, 768]⟩
abbrev S256x1024 : Shape := ⟨2, ![256, 1024]⟩
abbrev S256 : Shape := ⟨1, ![256]⟩
abbrev S256x1 : Shape := ⟨2, ![256, 1]⟩
abbrev S768x256 : Shape := ⟨2, ![768, 256]⟩
abbrev S1x768x256 : Shape := ⟨3, ![1, 768, 256]⟩

abbrev nBuf : Space → Nat
  | .hbm => 19
  | .vmem => 15
  | .smem => 0
  | _ => 0

abbrev bufTy : (tb : Table) → Fin (tcTables nBuf tb) → BufTy
  | .hbm, ⟨0, _⟩ => ⟨S16x1024x768, .f32⟩
  | .hbm, ⟨1, _⟩ => ⟨S768x768, .f32⟩
  | .hbm, ⟨2, _⟩ => ⟨S768, .f32⟩
  | .hbm, ⟨3, _⟩ => ⟨S768x768, .f32⟩
  | .hbm, ⟨4, _⟩ => ⟨S768, .f32⟩
  | .hbm, ⟨5, _⟩ => ⟨S768x768, .f32⟩
  | .hbm, ⟨6, _⟩ => ⟨S768, .f32⟩
  | .hbm, ⟨7, _⟩ => ⟨S768x768, .f32⟩
  | .hbm, ⟨8, _⟩ => ⟨S768x768, .bf16⟩
  | .hbm, ⟨9, _⟩ => ⟨S768x768, .f32⟩
  | .hbm, ⟨10, _⟩ => ⟨S768x768, .bf16⟩
  | .hbm, ⟨11, _⟩ => ⟨S768x768, .f32⟩
  | .hbm, ⟨12, _⟩ => ⟨S768x768, .bf16⟩
  | .hbm, ⟨13, _⟩ => ⟨S1x768, .f32⟩
  | .hbm, ⟨14, _⟩ => ⟨S1x768, .f32⟩
  | .hbm, ⟨15, _⟩ => ⟨S1x768, .f32⟩
  | .hbm, ⟨16, _⟩ => ⟨S16x768x1024, .f32⟩
  | .hbm, ⟨17, _⟩ => ⟨S16x768x1024, .f32⟩
  | .hbm, ⟨18, _⟩ => ⟨S16x1024x768, .f32⟩
  | .local _ .vmem, ⟨0, _⟩ => ⟨S1x1024x768, .f32⟩
  | .local _ .vmem, ⟨1, _⟩ => ⟨S1x1024x768, .f32⟩
  | .local _ .vmem, ⟨2, _⟩ => ⟨S1x768x1024, .f32⟩
  | .local _ .vmem, ⟨3, _⟩ => ⟨S1x768x1024, .f32⟩
  | .local _ .vmem, ⟨4, _⟩ => ⟨S768x768, .bf16⟩
  | .local _ .vmem, ⟨5, _⟩ => ⟨S1x768, .f32⟩
  | .local _ .vmem, ⟨6, _⟩ => ⟨S768x768, .bf16⟩
  | .local _ .vmem, ⟨7, _⟩ => ⟨S1x768, .f32⟩
  | .local _ .vmem, ⟨8, _⟩ => ⟨S768x768, .bf16⟩
  | .local _ .vmem, ⟨9, _⟩ => ⟨S1x768, .f32⟩
  | .local _ .vmem, ⟨10, _⟩ => ⟨S1x768x1024, .f32⟩
  | .local _ .vmem, ⟨11, _⟩ => ⟨S1x768x1024, .f32⟩
  | .local _ .vmem, ⟨12, _⟩ => ⟨S1024x768, .bf16⟩
  | .local _ .vmem, ⟨13, _⟩ => ⟨S1024x768, .bf16⟩
  | .local _ .vmem, ⟨14, _⟩ => ⟨S1024x768, .bf16⟩
  | _, _ => ⟨S16x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c4_i32 : BitVec 32 := 4#32
  let v36 : BitVec 32 := Scalar.addi c0_i32 c4_i32
  let c1_i32 : BitVec 32 := 1#32
  ⟨c0_i32, v36, c1_i32⟩
def k0_mult1 (k0_t1 : Fin k0_t1_loop.trips) : BitVec 32 :=
  let c0_i32 : BitVec 32 := 0#32
  let c1_i32 : BitVec 32 := 1#32
  let arg13 : BitVec 32 := Scf.iv c0_i32 c1_i32 k0_t1
  let c256_i32 : BitVec 32 := 256#32
  let v37 : BitVec 32 := Scalar.muli arg13 c256_i32
  v37
def k0_off1 (k0_t1 : Fin k0_t1_loop.trips) : Fin 2 → Nat :=
  let c0_i32 : BitVec 32 := 0#32
  let c1_i32 : BitVec 32 := 1#32
  let arg13 : BitVec 32 := Scf.iv c0_i32 c1_i32 k0_t1
  let c256_i32 : BitVec 32 := 256#32
  let v37 : BitVec 32 := Scalar.muli arg13 c256_i32
  let v38 : BitVec 32 := v37
  let v39 : Index := Scalar.indexCast v38
  let c0_23 : Index := 0#32
  ![v39.toNat, 0]
def k0_off2 (k0_t1 : Fin k0_t1_loop.trips) : Fin 3 → Nat :=
  let c0_33 : Index := 0#32
  let c0_34 : Index := 0#32
  let c0_i32 : BitVec 32 := 0#32
  let c1_i32 : BitVec 32 := 1#32
  let arg13 : BitVec 32 := Scf.iv c0_i32 c1_i32 k0_t1
  let c256_i32 : BitVec 32 := 256#32
  let v37 : BitVec 32 := Scalar.muli arg13 c256_i32
  let v38 : BitVec 32 := v37
  let v58 : Index := Scalar.indexCast v38
  ![0, 0, v58.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x768x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S768x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S768x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S768x768 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x768x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  transposes_S768x768_S768x768_1_0 : S768x768.Transposes [1, 0] S768x768
  bitsLt_bf16_f32 : FTy.bits .bf16 < FTy.bits .f32
  shapeCasts_S768_S1x768 : S768.ShapeCasts S1x768
  shapeCasts_S16x1024x768_S16x768x1024 : S16x1024x768.ShapeCasts S16x768x1024
  inb_S1x1024x768_S1x1024x768_0_0_0 : ∀ a, (![0, 0, 0] : Fin 3 → Nat) a + S1x1024x768.size a ≤ S1x1024x768.size a
  h_S1x1024x768 : 0 < S1x1024x768.numel
  shapeCasts_S1x1024x768_S1024x768 : S1x1024x768.ShapeCasts S1024x768
  inb_S768x768_S768x768_0_0 : ∀ a, (![0, 0] : Fin 2 → Nat) a + S768x768.size a ≤ S768x768.size a
  h_S768x768 : 0 < S768x768.numel
  shapeCasts_S768x768_S768x768 : S768x768.ShapeCasts S768x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S1024x768 : S1x768.Broadcasts S1024x768
  inb_S1024x768_S1024x768_0_0 : ∀ a, (![0, 0] : Fin 2 → Nat) a + S1024x768.size a ≤ S1024x768.size a
  h_S1024x768 : 0 < S1024x768.numel
  shapeCasts_S1024x768_S1024x768 : S1024x768.ShapeCasts S1024x768
  packedbf16_S1024x768_S1024x768_0_0 : (Rect.unit (s := S1024x768) ![0, 0] S1024x768.size inb_S1024x768_S1024x768_0_0).PackedRows (EltTy.packing .bf16)
  h_S256x768 : 0 < S256x768.numel
  reduces_S256x1024_S256 : S256x1024.Reduces [1] S256
  shapeCasts_S256_S256x1 : S256.ShapeCasts S256x1
  broadcasts_S256x1_S256x1024 : S256x1.Broadcasts S256x1024
  transposes_S256x768_p1_0_S768x256 : S256x768.Transposes [1, 0] S768x256
  h_S1x768x256 : 0 < S1x768x256.numel
  shapeCasts_S1x768x256_S768x256 : S1x768x256.ShapeCasts S768x256
  shapeCasts_S768x256_S1x768x256 : S768x256.ShapeCasts S1x768x256
  shapeCasts_S16x768x1024_S16x1024x768 : S16x768x1024.ShapeCasts S16x1024x768
  dot_S1024x768_S768x768_S1024x768_1_0_0_1_n_n_wf : DotDims.WF S1024x768 S768x768 S1024x768 [1] [0] [0] [1] [] []
  dot_S256x768_S1024x768_S256x1024_1_1_0_0_n_n_wf : DotDims.WF S256x768 S1024x768 S256x1024 [1] [1] [0] [0] [] []
  dot_S256x1024_S1024x768_S256x768_1_0_0_1_n_n_wf : DotDims.WF S256x1024 S1024x768 S256x768 [1] [0] [0] [1] [] []
  hrank0 : 0 < grid0.rank
  k0_t1_ok : k0_t1_loop.OK
  k0_mult1_dvd : ∀ k0_t1 : Fin k0_t1_loop.trips, 256 ∣ (k0_mult1 k0_t1).toNat
  k0_off1_inb : ∀ k0_t1 : Fin k0_t1_loop.trips, ∀ a, (k0_off1 k0_t1) a + S256x768.size a ≤ S1024x768.size a
  k0_off2_inb : ∀ k0_t1 : Fin k0_t1_loop.trips, ∀ a, (k0_off2 k0_t1) a + S1x768x256.size a ≤ S1x768x1024.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x768.size a ≤ S16x1024x768.size a
  hwx0_0 : ∀ i : grid0.Coords, EltTy.bits .f32 = 32 ∨ (Rect.block (s := S16x1024x768) S1x1024x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x768x1024.size a ≤ S16x768x1024.size a
  hwx0_1 : ∀ i : grid0.Coords, EltTy.bits .f32 = 32 ∨ (Rect.block (s := S16x768x1024) S1x768x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768x768.size a ≤ S768x768.size a
  hwx0_2 : ∀ i : grid0.Coords, EltTy.bits .bf16 = 32 ∨ (Rect.block (s := S768x768) S768x768.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x768.size a ≤ S1x768.size a
  hwx0_3 : ∀ i : grid0.Coords, EltTy.bits .f32 = 32 ∨ (Rect.block (s := S1x768) S1x768.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S768x768.size a ≤ S768x768.size a
  hwx0_4 : ∀ i : grid0.Coords, EltTy.bits .bf16 = 32 ∨ (Rect.block (s := S768x768) S768x768.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x768.size a ≤ S1x768.size a
  hwx0_5 : ∀ i : grid0.Coords, EltTy.bits .f32 = 32 ∨ (Rect.block (s := S1x768) S1x768.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S768x768.size a ≤ S768x768.size a
  hwx0_6 : ∀ i : grid0.Coords, EltTy.bits .bf16 = 32 ∨ (Rect.block (s := S768x768) S768x768.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x768.size a ≤ S1x768.size a
  hwx0_7 : ∀ i : grid0.Coords, EltTy.bits .f32 = 32 ∨ (Rect.block (s := S1x768) S1x768.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x768x1024.size a ≤ S16x768x1024.size a
  hwx0_8 : ∀ i : grid0.Coords, EltTy.bits .f32 = 32 ∨ (Rect.block (s := S16x768x1024) S1x768x1024.size (cc0_transform_8 i) (hinb0_8 i)).WholeWords (EltTy.packing .f32)

variable [Facts₀]

def dot_S1024x768_S768x768_S1024x768_1_0_0_1_n_n : DotDims S1024x768 S768x768 S1024x768 where
  lhsContracting := [1]
  rhsContracting := [0]
  lhsNonContracting := [0]
  rhsNonContracting := [1]
  lhsBatch := []
  rhsBatch := []
  wf := dot_S1024x768_S768x768_S1024x768_1_0_0_1_n_n_wf
def dot_S256x768_S1024x768_S256x1024_1_1_0_0_n_n : DotDims S256x768 S1024x768 S256x1024 where
  lhsContracting := [1]
  rhsContracting := [1]
  lhsNonContracting := [0]
  rhsNonContracting := [0]
  lhsBatch := []
  rhsBatch := []
  wf := dot_S256x768_S1024x768_S256x1024_1_1_0_0_n_n_wf
def dot_S256x1024_S1024x768_S256x768_1_0_0_1_n_n : DotDims S256x1024 S1024x768 S256x768 where
  lhsContracting := [1]
  rhsContracting := [0]
  lhsNonContracting := [0]
  rhsNonContracting := [1]
  lhsBatch := []
  rhsBatch := []
  wf := dot_S256x1024_S1024x768_S256x768_1_0_0_1_n_n_wf

abbrev win0_0 : Pipeline.Window sig grid0 :=
  Pipeline.Window.ofSpec (Memref.whole main_arg0) S1x1024x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S1x768x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S768x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S768x768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1x768.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S768x768.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v8) S1x768.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v10) S1x768x1024.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S16x1024x768 : Shape := ⟨3, ![16, 1024, 768]⟩
abbrev S768x768 : Shape := ⟨2, ![768, 768]⟩
abbrev S768 : Shape := ⟨1, ![768]⟩
abbrev S1x1x768 : Shape := ⟨3, ![1, 1, 768]⟩
abbrev S16x1024x1024 : Shape := ⟨3, ![16, 1024, 1024]⟩
abbrev S_ : Shape := ⟨0, ![]⟩
abbrev S16x1024 : Shape := ⟨2, ![16, 1024]⟩
abbrev S16x1024x1 : Shape := ⟨3, ![16, 1024, 1]⟩
abbrev S16x768x1024 : Shape := ⟨3, ![16, 768, 1024]⟩

abbrev nBuf : Space → Nat
  | .hbm => 41
  | .vmem => 0
  | .smem => 0
  | _ => 0

abbrev bufTy : (tb : Table) → Fin (tcTables nBuf tb) → BufTy
  | .hbm, ⟨0, _⟩ => ⟨S16x1024x768, .f32⟩
  | .hbm, ⟨1, _⟩ => ⟨S768x768, .f32⟩
  | .hbm, ⟨2, _⟩ => ⟨S768, .f32⟩
  | .hbm, ⟨3, _⟩ => ⟨S768x768, .f32⟩
  | .hbm, ⟨4, _⟩ => ⟨S768, .f32⟩
  | .hbm, ⟨5, _⟩ => ⟨S768x768, .f32⟩
  | .hbm, ⟨6, _⟩ => ⟨S768, .f32⟩
  | .hbm, ⟨7, _⟩ => ⟨S16x1024x768, .f32⟩
  | .hbm, ⟨8, _⟩ => ⟨S1x1x768, .f32⟩
  | .hbm, ⟨9, _⟩ => ⟨S16x1024x768, .f32⟩
  | .hbm, ⟨10, _⟩ => ⟨S16x1024x768, .f32⟩
  | .hbm, ⟨11, _⟩ => ⟨S16x1024x768, .f32⟩
  | .hbm, ⟨12, _⟩ => ⟨S1x1x768, .f32⟩
  | .hbm, ⟨13, _⟩ => ⟨S16x1024x768, .f32⟩
  | .hbm, ⟨14, _⟩ => ⟨S16x1024x768, .f32⟩
  | .hbm, ⟨15, _⟩ => ⟨S16x1024x768, .f32⟩
  | .hbm, ⟨16, _⟩ => ⟨S1x1x768, .f32⟩
  | .hbm, ⟨17, _⟩ => ⟨S16x1024x768, .f32⟩
  | .hbm, ⟨18, _⟩ => ⟨S16x1024x768, .f32⟩
  | .hbm, ⟨19, _⟩ => ⟨S16x1024x1024, .f32⟩
  | .hbm, ⟨20, _⟩ => ⟨S_, .f32⟩
  | .hbm, ⟨21, _⟩ => ⟨S16x1024x1024, .f32⟩
  | .hbm, ⟨22, _⟩ => ⟨S16x1024x1024, .f32⟩
  | .hbm, ⟨23, _⟩ => ⟨S_, .f32⟩
  | .hbm, ⟨24, _⟩ => ⟨S16x1024, .f32⟩
  | .hbm, ⟨25, _⟩ => ⟨S_, .f32⟩
  | .hbm, ⟨26, _⟩ => ⟨S16x1024, .f32⟩
  | .hbm, ⟨27, _⟩ => ⟨S16x1024, .f32⟩
  | .hbm, ⟨28, _⟩ => ⟨S16x1024x1, .f32⟩
  | .hbm, ⟨29, _⟩ => ⟨S16x1024x1024, .f32⟩
  | .hbm, ⟨30, _⟩ => ⟨S16x1024x1024, .f32⟩
  | .hbm, ⟨31, _⟩ => ⟨S16x1024x1024, .f32⟩
  | .hbm, ⟨32, _⟩ => ⟨S_, .f32⟩
  | .hbm, ⟨33, _⟩ => ⟨S16x1024, .f32⟩
  | .hbm, ⟨34, _⟩ => ⟨S16x1024x1, .f32⟩
  | .hbm, ⟨35, _⟩ => ⟨S16x1024x1024, .f32⟩
  | .hbm, ⟨36, _⟩ => ⟨S16x1024x1024, .f32⟩
  | .hbm, ⟨37, _⟩ => ⟨S16x1024x768, .f32⟩
  | .hbm, ⟨38, _⟩ => ⟨S16x768x1024, .f32⟩
  | .hbm, ⟨39, _⟩ => ⟨S16x1024x768, .f32⟩
  | .hbm, ⟨40, _⟩ => ⟨S16x1024x768, .f32⟩
  | _, _ => ⟨S16x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]

class Facts₀ : Prop where
  bcast_S768_S1x1x768_2 : S768.BroadcastsInDim S1x1x768 (![2] : Fin 1 → Fin S1x1x768.rank)
  bcast_S1x1x768_S16x1024x768_0_1_2 : S1x1x768.BroadcastsInDim S16x1024x768 (![0, 1, 2] : Fin 3 → Fin S16x1024x768.rank)
  bcast_S_S16x1024x1024 : S_.BroadcastsInDim S16x1024x1024 (![] : Fin 0 → Fin S16x1024x1024.rank)
  reducesTo_S16x1024x1024_S16x1024_d2 : S16x1024x1024.ReducesTo [2] S16x1024
  h_S_ : 0 < S_.numel
  bcast_S_S16x1024 : S_.BroadcastsInDim S16x1024 (![] : Fin 0 → Fin S16x1024.rank)
  bcast_S16x1024_S16x1024x1_0_1 : S16x1024.BroadcastsInDim S16x1024x1 (![0, 1] : Fin 2 → Fin S16x1024x1.rank)
  bcast_S16x1024x1_S16x1024x1024_0_1_2 : S16x1024x1.BroadcastsInDim S16x1024x1024 (![0, 1, 2] : Fin 3 → Fin S16x1024x1024.rank)
  transposes_S16x1024x768_S16x768x1024_0_2_1 : S16x1024x768.Transposes [0, 2, 1] S16x768x1024
  shapeCasts_S16x768x1024_S16x1024x768 : S16x768x1024.ShapeCasts S16x1024x768
  dot_S16x1024x768_S768x768_S16x1024x768_2_1_01_0_n_n_wf : DotDims.WF S16x1024x768 S768x768 S16x1024x768 [2] [1] [0, 1] [0] [] []
  dot_S16x1024x768_S16x1024x768_S16x1024x1024_2_2_1_1_0_0_wf : DotDims.WF S16x1024x768 S16x1024x768 S16x1024x1024 [2] [2] [1] [1] [0] [0]
  dot_S16x1024x1024_S16x1024x768_S16x1024x768_2_1_1_2_0_0_wf : DotDims.WF S16x1024x1024 S16x1024x768 S16x1024x768 [2] [1] [1] [2] [0] [0]

variable [Facts₀]

def dot_S16x1024x768_S768x768_S16x1024x768_2_1_01_0_n_n : DotDims S16x1024x768 S768x768 S16x1024x768 where
  lhsContracting := [2]
  rhsContracting := [1]
  lhsNonContracting := [0, 1]
  rhsNonContracting := [0]
  lhsBatch := []
  rhsBatch := []
  wf := dot_S16x1024x768_S768x768_S16x1024x768_2_1_01_0_n_n_wf
def dot_S16x1024x768_S16x1024x768_S16x1024x1024_2_2_1_1_0_0 : DotDims S16x1024x768 S16x1024x768 S16x1024x1024 where
  lhsContracting := [2]
  rhsContracting := [2]
  lhsNonContracting := [1]
  rhsNonContracting := [1]
  lhsBatch := [0]
  rhsBatch := [0]
  wf := dot_S16x1024x768_S16x1024x768_S16x1024x1024_2_2_1_1_0_0_wf
def dot_S16x1024x1024_S16x1024x768_S16x1024x768_2_1_1_2_0_0 : DotDims S16x1024x1024 S16x1024x768 S16x1024x768 where
  lhsContracting := [2]
  rhsContracting := [1]
  lhsNonContracting := [1]
  rhsNonContracting := [2]
  lhsBatch := [0]
  rhsBatch := [0]
  wf := dot_S16x1024x1024_S16x1024x768_S16x1024x768_2_1_1_2_0_0_wf

class Facts : Prop extends Facts₀ where

variable [Facts]
-- ==== Proof.Spec.lean ====
/-
  The mathematics both programs compute, over the extended reals.

  One attention head acts on a matrix `x` of 1024 token rows and 768 features. Three dense layers
  `y = x Wᵀ + b` give the queries, keys and values. A query row `q` meets every key row in the scaled inner
  product `(∑ e, q e * k j e) * scale`; the scores of one query are shifted by their maximum, exponentiated and
  divided by their sum (a softmax along the key axis); the weights mix the value rows, `∑ j, a j * v j d`.
  Every step is stated for ONE query row, because that is how far the dependence reaches: the result at token
  `n` uses row `n` of the queries and all keys and values of the same head.

  Nothing here needs finiteness: both programs apply the same exact operations to the same operands, and the
  only differences are the order of finite sums and the order in which a maximum is folded, neither of which an
  extended-real sum or maximum sees.
-/
import Idealize.ShloMosaic.PureOps.Ideal
import Idealize.ShloMosaic.Lib.ValueIdx

noncomputable section

open scoped BigOperators

namespace Cert.Attn

open Idealize.ShloMosaic Idealize.ShloMosaic.ValueIdx

/-- A matrix of extended reals by row and column. -/
abbrev Mat (r c : ℕ) := Fin r → Fin c → EReal

/-- One row of a dense layer `x Wᵀ + b`: feature `e` of the output is `∑ d, x d * W e d + b e`. -/
def linRow (x : Fin 768 → EReal) (W : Mat 768 768) (b : Fin 768 → EReal) : Fin 768 → EReal :=
  fun e => (∑ d : Fin 768, x d * W e d) + b e

/-- The scaling of the scores, `768 ^ (-1/2)` as both programs spell it: the same 32-bit word on both sides. -/
def scale : EReal := Ideal.ofBits .f32 0x3D13CD3A#32

/-- The scores of one query row against all 1024 key rows. -/
def scoreRow (q : Fin 768 → EReal) (k : Mat 1024 768) : Fin 1024 → EReal :=
  fun j => (∑ e : Fin 768, q e * k j e) * scale

/-- The maximum of a row of scores, folded from minus infinity. -/
def rowMax (s : Fin 1024 → EReal) : EReal :=
  (Finset.univ : Finset (Fin 1024)).fold max (Ideal.ofBits .f32 0xFF800000#32) s

/-- The exponentials of a row of scores shifted by its maximum. -/
def expRow (s : Fin 1024 → EReal) : Fin 1024 → EReal := fun j => Ideal.exp (s j - rowMax s)

/-- The softmax of a row of scores. -/
def softRow (s : Fin 1024 → EReal) : Fin 1024 → EReal :=
  fun j => Ideal.div (expRow s j) (∑ j' : Fin 1024, expRow s j')

/-- A row of weights mixing the value rows. -/
def mixRow (a : Fin 1024 → EReal) (v : Mat 1024 768) : Fin 768 → EReal :=
  fun d => ∑ j : Fin 1024, a j * v j d

/-- Attention for one query row. -/
def attendRow (q : Fin 768 → EReal) (k v : Mat 1024 768) : Fin 768 → EReal :=
  mixRow (softRow (scoreRow q k)) v

/-- One head on a 1024 × 768 matrix of tokens: the three dense layers, then attention row by row. -/
def head (x : Mat 1024 768) (Wq : Mat 768 768) (bq : Fin 768 → EReal) (Wk : Mat 768 768) (bk : Fin 768 → EReal)
    (Wv : Mat 768 768) (bv : Fin 768 → EReal) : Mat 1024 768 :=
  fun n => attendRow (linRow (x n) Wq bq) (fun j => linRow (x j) Wk bk) (fun j => linRow (x j) Wv bv)

end Cert.Attn

end
-- ==== Proof.Block.lean ====
/-
  The kernel's output block, and the whole output array, as functions of what the kernel reads.

  At one grid point the kernel holds one batch element: the token matrix `x0` (1 × 1024 × 768), the same 768·1024
  numbers laid out 1 × 768 × 1024 (`x1`), the three weight matrices already transposed (`x2`, `x4`, `x6`: entry
  `(d, e)` is the weight from input feature `d` to output feature `e`) and the three biases as one row each
  (`x3`, `x5`, `x7`). The block it writes holds, at `(0, d, n)`, attention's output for token `n` and feature `d`
  — the transposed layout — plus `x1` at the same place.
-/
import proofs.«177509_j26268019982573_2_alg».proof.Proof.Gen.KernelIdeal
import proofs.«177509_j26268019982573_2_alg».proof.Proof.Spec

noncomputable section

open scoped BigOperators

namespace Cert.Attn

open Cert.KernelIdeal Idealize.ShloMosaic Idealize.ShloMosaic.ValueIdx

/-- A transposed weight block read as the weight matrix: row `e` (output feature), column `d` (input feature). -/
def wOf (w : Vec Ideal S768x768 .bf16) : Mat 768 768 := fun e d => w (ix2 d e)

/-- A one-row bias block read as a vector. -/
def bOf (b : Vec Ideal S1x768 .f32) : Fin 768 → EReal := fun e => b (ix2 (0 : Fin 1) e)

/-- A 1 × 1024 × 768 block read as a matrix of token rows. -/
def xOf (x : Vec Ideal S1x1024x768 .f32) : Mat 1024 768 := fun n d => x (ix3 (0 : Fin 1) n d)

/-- What the kernel leaves in its output block at one grid point. -/
def blockOut (x0 : Vec Ideal S1x1024x768 .f32) (x1 : Vec Ideal S1x768x1024 .f32) (x2 : Vec Ideal S768x768 .bf16)
    (x3 : Vec Ideal S1x768 .f32) (x4 : Vec Ideal S768x768 .bf16) (x5 : Vec Ideal S1x768 .f32)
    (x6 : Vec Ideal S768x768 .bf16) (x7 : Vec Ideal S1x768 .f32) : Vec Ideal S1x768x1024 .f32 :=
  fun y => head (xOf x0) (wOf x2) (bOf x3) (wOf x4) (bOf x5) (wOf x6) (bOf x7) (y 2) (y 1) + x1 y

/-- Batch element `b` of a 16 × 1024 × 768 array, as a block. -/
def batchX (X : FVec Ideal S16x1024x768 .f32) (b : Fin 16) : Vec Ideal S1x1024x768 .f32 :=
  fun y => X (ix3 b (y 1) (y 2))

/-- Batch element `b` of a 16 × 768 × 1024 array, as a block. -/
def batchR (XR : FVec Ideal S16x768x1024 .f32) (b : Fin 16) : Vec Ideal S1x768x1024 .f32 :=
  fun y => XR (ix3 b (y 1) (y 2))

/-- The whole 16 × 768 × 1024 array the kernel's region leaves: batch element by batch element, its block. -/
def regionOut (X : FVec Ideal S16x1024x768 .f32) (XR : FVec Ideal S16x768x1024 .f32) (w2 : Vec Ideal S768x768 .bf16)
    (b3 : Vec Ideal S1x768 .f32) (w4 : Vec Ideal S768x768 .bf16) (b5 : Vec Ideal S1x768 .f32)
    (w6 : Vec Ideal S768x768 .bf16) (b7 : Vec Ideal S1x768 .f32) : FVec Ideal S16x768x1024 .f32 :=
  fun i => blockOut (batchX X (i 0)) (batchR XR (i 0)) w2 b3 w4 b5 w6 b7 (ix3 (0 : Fin 1) (i 1) (i 2))

end Cert.Attn

end
-- ==== Proof.BodyPieces.lean ====
/-
  One trip of the kernel body's loop, read as values.

  Trip `k` of the loop (`k < 4`) loads rows `256 k … 256 k + 255` of the query scratch, all 1024 rows of the key and
  value scratches and columns `256 k … 256 k + 255` of the 1 × 768 × 1024 residual block, and stores one
  1 × 768 × 256 piece of the output block at the same columns. Its payload at `(0, d, r)` is attention for the
  loaded query row `r` at feature `d` plus the loaded residual; placed in the block, that is the value at
  `(0, d, 256 k + r)` of ONE function of the block index, the same for every trip.
-/
import proofs.«177509_j26268019982573_2_alg».proof.Proof.Gen.KernelIdeal.Skeleton
import proofs.«177509_j26268019982573_2_alg».proof.Proof.Block
import Idealize.ShloMosaic.Lib.Pipeline.Value

set_option maxRecDepth 16384

noncomputable section

open scoped BigOperators

namespace Cert.Attn

open Cert.KernelIdeal Cert.KernelIdeal.Gen Idealize.ShloMosaic Idealize.ShloMosaic.ValueIdx

/-- What one trip's payload is at an entry: attention for the loaded query row against the loaded keys and
    values, plus the loaded residual. (Proved of the printed payload in another module; taken here as a
    hypothesis, so that this module is about placement only.) -/
def AttnPayload : Prop :=
  ∀ (v40 : Vec Ideal S256x768 .bf16) (v41 v55 : Vec Ideal S1024x768 .bf16) (v59 : Vec Ideal S1x768x256 .f32)
    (d : Fin 768) (r : Fin 256),
    k0_pay2 (F := Ideal) v40 v41 v55 v59 (ix3 (0 : Fin 1) d r)
      = attendRow (fun e => v40 (ix2 r e)) (fun j e => v41 (ix2 j e)) (fun j d' => v55 (ix2 j d')) d
          + v59 (ix3 (0 : Fin 1) d r)

/-- What a projection's payload is at an entry: one row of the dense layer. -/
def LinPayload (pay : Vec Ideal S1x1024x768 .f32 → Vec Ideal S768x768 .bf16 → Vec Ideal S1x768 .f32 → FVec Ideal S1024x768 .bf16) : Prop :=
  ∀ (v0 : Vec Ideal S1x1024x768 .f32) (w : Vec Ideal S768x768 .bf16) (b : Vec Ideal S1x768 .f32) (n : Fin 1024) (e : Fin 768),
    pay v0 w b (ix2 n e) = linRow (xOf v0 n) (wOf w) (bOf b) e

/-- The function of the output block's index that every trip's piece restricts: at `(0, d, n)`, attention for
    query row `n` at feature `d` plus the residual there. -/
def loopOut (xr : Vec Ideal S1x768x1024 .f32) (q k v : Vec Ideal S1024x768 .bf16) : Vec Ideal S1x768x1024 .f32 :=
  fun y => attendRow (fun e => q (ix2 (y 2) e)) (fun j e => k (ix2 j e)) (fun j d => v (ix2 j d)) (y 1) + xr y

/-- The loop has at most four trips. -/
theorem trips_le (k : Fin k0_t1_loop.trips) : k.val < 4 := Nat.lt_of_lt_of_le k.isLt k0_t1_abs.2.1

/-- One trip's payload, at a piece index, is `loopOut` at the place the piece index lands in the block: the loaded
    query rows are rows `256 k + r` of the scratch, the loaded residual columns are columns `256 k + r` of the
    block, and the piece is stored at those columns. -/
theorem piece_agrees (hp : AttnPayload) (xr : Vec Ideal S1x768x1024 .f32) (q kk v : Vec Ideal S1024x768 .bf16)
    (k : Fin k0_t1_loop.trips) (x : S1x768x256.Idx) :
    k0_pay2 (F := Ideal) (View.ld q (Rect.unit (s := S1024x768) (k0_off1 k) S256x768.size (k0_off1_inb k)))
        (View.ld kk (Rect.unit (s := S1024x768) ![0, 0] S1024x768.size inb_S1024x768_S1024x768_0_0))
        (View.ld v (Rect.unit (s := S1024x768) ![0, 0] S1024x768.size inb_S1024x768_S1024x768_0_0))
        (View.ld xr (Rect.unit (s := S1x768x1024) (k0_off2 k) S1x768x256.size (k0_off2_inb k))) x
      = loopOut xr q kk v ((Rect.unit (s := S1x768x1024) (k0_off2 k) S1x768x256.size (k0_off2_inb k)).emb x) := by
  obtain ⟨z, d, r, rfl⟩ : ∃ (z : Fin 1) (d : Fin 768) (r : Fin 256), x = ix3 z d r := ⟨x 0, x 1, x 2, eq_ix3 x⟩
  obtain rfl : z = 0 := Subsingleton.elim _ _
  have hk := trips_le k
  refine (hp _ _ _ _ d r).trans ?_
  have hn : 256 * k.val + r.val < 1024 := by have := r.isLt; omega
  have hE : (Rect.unit (s := S1x768x1024) (k0_off2 k) S1x768x256.size (k0_off2_inb k)).emb (ix3 (0 : Fin 1) d r)
      = ix3 (0 : Fin 1) d (⟨256 * k.val + r.val, hn⟩ : Fin 1024) := by
    funext a
    apply Fin.ext
    rw [Rect.emb_apply]
    simp only [Rect.off_unit, Rect.stride_unit, k0_off2_eq]
    match a with
    | ⟨0, _⟩ => rfl
    | ⟨1, _⟩ => show 0 + 1 * d.val = d.val; omega
    | ⟨2, _⟩ => show 256 * k.val + 1 * r.val = 256 * k.val + r.val; omega
  rw [hE]
  have hz : (![0, 0] : Fin 2 → Nat) = fun _ => 0 := by funext a; fin_cases a <;> rfl
  rw [View.ld_unit_zero (S := S1024x768) hz, View.ld_unit_zero (S := S1024x768) hz]
  have hq : ∀ e : Fin 768, View.ld q (Rect.unit (s := S1024x768) (k0_off1 k) S256x768.size (k0_off1_inb k)) (ix2 r e)
      = q (ix2 (⟨256 * k.val + r.val, hn⟩ : Fin 1024) e) := by
    intro e
    show q ((Rect.unit (s := S1024x768) (k0_off1 k) S256x768.size (k0_off1_inb k)).idx (ix2 r e)) = _
    refine congrArg q (funext fun a => Fin.ext ?_)
    rw [LoadRect.idx_apply]
    simp only [Rect.off_unit, Rect.stride_unit, k0_off1_eq]
    match a with
    | ⟨0, _⟩ => show 256 * k.val + 1 * r.val = 256 * k.val + r.val; omega
    | ⟨1, _⟩ => show 0 + 1 * e.val = e.val; omega
  have hx : View.ld xr (Rect.unit (s := S1x768x1024) (k0_off2 k) S1x768x256.size (k0_off2_inb k)) (ix3 (0 : Fin 1) d r)
      = xr (ix3 (0 : Fin 1) d (⟨256 * k.val + r.val, hn⟩ : Fin 1024)) := congrArg xr hE
  simp only [hq]
  rw [hx]
  rfl

/-- With the scratches holding the three projections of the token block, `loopOut` is the block the kernel
    is to leave: row by row the projections are the dense layers, so the attention of `loopOut` is the head's. -/
theorem loopOut_projections (h4 : LinPayload (k0_pay4 (F := Ideal))) (h5 : LinPayload (k0_pay5 (F := Ideal)))
    (h16 : LinPayload (fun v0 w b => k0_pay1 (F := Ideal) (k0_pay6 (F := Ideal) v0 w b)))
    (x0 : Vec Ideal S1x1024x768 .f32) (x1 : Vec Ideal S1x768x1024 .f32) (x2 : Vec Ideal S768x768 .bf16)
    (x3 : Vec Ideal S1x768 .f32) (x4 : Vec Ideal S768x768 .bf16) (x5 : Vec Ideal S1x768 .f32)
    (x6 : Vec Ideal S768x768 .bf16) (x7 : Vec Ideal S1x768 .f32) :
    loopOut x1 (k0_pay4 (F := Ideal) x0 x2 x3) (k0_pay5 (F := Ideal) x0 x4 x5)
        (k0_pay1 (F := Ideal) (k0_pay6 (F := Ideal) x0 x6 x7))
      = blockOut x0 x1 x2 x3 x4 x5 x6 x7 := by
  funext y
  unfold loopOut blockOut head
  have e4 : (fun e : Fin 768 => k0_pay4 (F := Ideal) x0 x2 x3 (ix2 (y 2) e)) = linRow (xOf x0 (y 2)) (wOf x2) (bOf x3) :=
    funext fun e => h4 x0 x2 x3 (y 2) e
  have e5 : (fun (j : Fin 1024) (e : Fin 768) => k0_pay5 (F := Ideal) x0 x4 x5 (ix2 j e))
      = fun j => linRow (xOf x0 j) (wOf x4) (bOf x5) :=
    funext fun j => funext fun e => h5 x0 x4 x5 j e
  have e6 : (fun (j : Fin 1024) (d : Fin 768) => k0_pay1 (F := Ideal) (k0_pay6 (F := Ideal) x0 x6 x7) (ix2 j d))
      = fun j => linRow (xOf x0 j) (wOf x6) (bOf x7) :=
    funext fun j => funext fun d => h16 x0 x6 x7 j d
  rw [e4, e5, e6]

end Cert.Attn

end
-- ==== Proof.BodyRun.lean ====
/-
  The run of the kernel body, read as values.

  The body first stores the three projections (queries, keys, values) of the whole 1024 × 768 token block into
  three scratch buffers. A counted loop of four trips follows; each trip stores one 1 × 768 × 256 piece of the
  output block. The pieces tile the block, and each restricts ONE function of the block index (the module
  before this one), so that function is what the block holds after the body: at `(0, d, n)` the head's
  output for token `n`, feature `d`, plus the residual block there.
-/
import proofs.«177509_j26268019982573_2_alg».proof.Proof.Gen.KernelIdeal.Frame
import proofs.«177509_j26268019982573_2_alg».proof.Proof.BodyPieces
import Idealize.ShloMosaic.Lib.Writes

set_option maxRecDepth 16384

noncomputable section

open scoped BigOperators

namespace Cert.Attn

open Cert.KernelIdeal Cert.KernelIdeal.Gen Idealize.ShloMosaic Idealize.ShloMosaic.ValueIdx
open Idealize.SL Idealize.SL.Sem Idealize.ShloMosaic.Tactic

/-- The one piece trip `k` stores restricts `loopOut` of what the trip's four read buffers hold. -/
theorem trip_agrees (hp : AttnPayload) (c : Dev nD) (i : grid0.Coords) (arg1 : Memref sig .tc .vmem S1x1024x768 .f32) (harg1 : arg1.IsWhole) (arg2 : Memref sig .tc .vmem S1x768x1024 .f32) (harg2 : arg2.IsWhole) (arg3 : Memref sig .tc .vmem S768x768 .bf16) (harg3 : arg3.IsWhole) (arg4 : Memref sig .tc .vmem S1x768 .f32) (harg4 : arg4.IsWhole) (arg5 : Memref sig .tc .vmem S768x768 .bf16) (harg5 : arg5.IsWhole) (arg6 : Memref sig .tc .vmem S1x768 .f32) (harg6 : arg6.IsWhole) (arg7 : Memref sig .tc .vmem S768x768 .bf16) (harg7 : arg7.IsWhole) (arg8 : Memref sig .tc .vmem S1x768 .f32) (harg8 : arg8.IsWhole) (arg9 : Memref sig .tc .vmem S1x768x1024 .f32) (harg9 : arg9.IsWhole) (arg10 : Memref sig .tc .vmem S1024x768 .bf16) (harg10 : arg10.IsWhole) (arg11 : Memref sig .tc .vmem S1024x768 .bf16) (harg11 : arg11.IsWhole) (arg12 : Memref sig .tc .vmem S1024x768 .bf16) (harg12 : arg12.IsWhole)
    (X2 : BufTy.Contents (Elt Ideal) arg2.view.ty) (X10 : BufTy.Contents (Elt Ideal) arg10.view.ty) (X11 : BufTy.Contents (Elt Ideal) arg11.view.ty) (X12 : BufTy.Contents (Elt Ideal) arg12.view.ty) (k : Fin k0_t1_loop.trips) :
    ∀ p ∈ tripL_k0_t1 (F := Ideal) Variants.none c none i arg1 harg1 arg2 harg2 arg3 harg3 arg4 harg4 arg5 harg5 arg6 harg6 arg7 harg7 arg8 harg8 arg9 harg9 arg10 harg10 arg11 harg11 arg12 harg12 X2 X10 X11 X12 k, ∀ x : p.1.shape.Idx,
      p.2 x = loopOut (arg2.view.read (Elt Ideal) X2) (arg10.view.read (Elt Ideal) X10) (arg11.view.read (Elt Ideal) X11) (arg12.view.read (Elt Ideal) X12) (p.1.emb x) := by
  unfold tripL_k0_t1 trip_k0_t1
  dsimp only
  intro p hp'
  rw [List.mem_singleton] at hp'
  subst hp'
  intro x
  exact piece_agrees hp _ _ _ _ k x

/-- So do all pieces of the trips before any trip count: by induction, each trip putting its own piece in front. -/
theorem trips_agree (hp : AttnPayload) (c : Dev nD) (i : grid0.Coords) (arg1 : Memref sig .tc .vmem S1x1024x768 .f32) (harg1 : arg1.IsWhole) (arg2 : Memref sig .tc .vmem S1x768x1024 .f32) (harg2 : arg2.IsWhole) (arg3 : Memref sig .tc .vmem S768x768 .bf16) (harg3 : arg3.IsWhole) (arg4 : Memref sig .tc .vmem S1x768 .f32) (harg4 : arg4.IsWhole) (arg5 : Memref sig .tc .vmem S768x768 .bf16) (harg5 : arg5.IsWhole) (arg6 : Memref sig .tc .vmem S1x768 .f32) (harg6 : arg6.IsWhole) (arg7 : Memref sig .tc .vmem S768x768 .bf16) (harg7 : arg7.IsWhole) (arg8 : Memref sig .tc .vmem S1x768 .f32) (harg8 : arg8.IsWhole) (arg9 : Memref sig .tc .vmem S1x768x1024 .f32) (harg9 : arg9.IsWhole) (arg10 : Memref sig .tc .vmem S1024x768 .bf16) (harg10 : arg10.IsWhole) (arg11 : Memref sig .tc .vmem S1024x768 .bf16) (harg11 : arg11.IsWhole) (arg12 : Memref sig .tc .vmem S1024x768 .bf16) (harg12 : arg12.IsWhole)
    (X2 : BufTy.Contents (Elt Ideal) arg2.view.ty) (X10 : BufTy.Contents (Elt Ideal) arg10.view.ty) (X11 : BufTy.Contents (Elt Ideal) arg11.view.ty) (X12 : BufTy.Contents (Elt Ideal) arg12.view.ty) :
    ∀ n : ℕ, ∀ p ∈ pb_k0_t1 (F := Ideal) Variants.none c none i arg1 harg1 arg2 harg2 arg3 harg3 arg4 harg4 arg5 harg5 arg6 harg6 arg7 harg7 arg8 harg8 arg9 harg9 arg10 harg10 arg11 harg11 arg12 harg12 X2 X10 X11 X12 n, ∀ x : p.1.shape.Idx,
      p.2 x = loopOut (arg2.view.read (Elt Ideal) X2) (arg10.view.read (Elt Ideal) X10) (arg11.view.read (Elt Ideal) X11) (arg12.view.read (Elt Ideal) X12) (p.1.emb x)
  | 0 => by
    rw [pb_k0_t1.eq_1]
    intro p hp'
    exact absurd hp' List.not_mem_nil
  | n + 1 => by
    rw [pb_k0_t1.eq_2]
    unfold pb_k0_t1Step
    by_cases h : n < k0_t1_loop.trips
    · rw [dif_pos h]
      intro p hp'
      rcases List.mem_append.mp hp' with h1 | h2
      · exact trip_agrees hp c i arg1 harg1 arg2 harg2 arg3 harg3 arg4 harg4 arg5 harg5 arg6 harg6 arg7 harg7 arg8 harg8 arg9 harg9 arg10 harg10 arg11 harg11 arg12 harg12 X2 X10 X11 X12 ⟨n, h⟩ p h1
      · exact trips_agree hp c i arg1 harg1 arg2 harg2 arg3 harg3 arg4 harg4 arg5 harg5 arg6 harg6 arg7 harg7 arg8 harg8 arg9 harg9 arg10 harg10 arg11 harg11 arg12 harg12 X2 X10 X11 X12 n p h2
    · rw [dif_neg h]
      exact trips_agree hp c i arg1 harg1 arg2 harg2 arg3 harg3 arg4 harg4 arg5 harg5 arg6 harg6 arg7 harg7 arg8 harg8 arg9 harg9 arg10 harg10 arg11 harg11 arg12 harg12 X2 X10 X11 X12 n

/-- After the body the output block is `blockOut` of the input blocks: the pieces cover the block and each
    restricts `loopOut` of the residual block and the three scratches, which hold the three projections (one
    covering store each, into a buffer the body read nothing from before). -/
theorem out_block (hp : AttnPayload) (h4 : LinPayload (k0_pay4 (F := Ideal))) (h5 : LinPayload (k0_pay5 (F := Ideal)))
    (h16 : LinPayload (fun v0 w b => k0_pay1 (F := Ideal) (k0_pay6 (F := Ideal) v0 w b)))
    (c : Dev nD) (i : grid0.Coords) (arg1 : Memref sig .tc .vmem S1x1024x768 .f32) (harg1 : arg1.IsWhole) (arg2 : Memref sig .tc .vmem S1x768x1024 .f32) (harg2 : arg2.IsWhole) (arg3 : Memref sig .tc .vmem S768x768 .bf16) (harg3 : arg3.IsWhole) (arg4 : Memref sig .tc .vmem S1x768 .f32) (harg4 : arg4.IsWhole) (arg5 : Memref sig .tc .vmem S768x768 .bf16) (harg5 : arg5.IsWhole) (arg6 : Memref sig .tc .vmem S1x768 .f32) (harg6 : arg6.IsWhole) (arg7 : Memref sig .tc .vmem S768x768 .bf16) (harg7 : arg7.IsWhole) (arg8 : Memref sig .tc .vmem S1x768 .f32) (harg8 : arg8.IsWhole) (arg9 : Memref sig .tc .vmem S1x768x1024 .f32) (harg9 : arg9.IsWhole) (arg10 : Memref sig .tc .vmem S1024x768 .bf16) (harg10 : arg10.IsWhole) (arg11 : Memref sig .tc .vmem S1024x768 .bf16) (harg11 : arg11.IsWhole) (arg12 : Memref sig .tc .vmem S1024x768 .bf16) (harg12 : arg12.IsWhole) (x0 : Vec Ideal S1x1024x768 .f32) (x1 : Vec Ideal S1x768x1024 .f32) (x2 : Vec Ideal S768x768 .bf16) (x3 : Vec Ideal S1x768 .f32) (x4 : Vec Ideal S768x768 .bf16) (x5 : Vec Ideal S1x768 .f32) (x6 : Vec Ideal S768x768 .bf16) (x7 : Vec Ideal S1x768 .f32) :
    out0_A_8 (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6 x7 = blockOut x0 x1 x2 x3 x4 x5 x6 x7 := by
  funext y
  unfold out0_A_8
  refine View.read_writes_apply_of_pieces _ _ (blockOut x0 x1 x2 x3 x4 x5 x6 x7) _ ?_ y (cover0_A_8 c i arg1 harg1 arg2 harg2 arg3 harg3 arg4 harg4 arg5 harg5 arg6 harg6 arg7 harg7 arg8 harg8 arg9 harg9 arg10 harg10 arg11 harg11 arg12 harg12 x0 x1 x2 x3 x4 x5 x6 x7 y)
  unfold kernelRun0_A
  dsimp only
  sl_unfold_words
  intro p hp' x
  rw [trips_agree hp c i arg1 harg1 arg2 harg2 arg3 harg3 arg4 harg4 arg5 harg5 arg6 harg6 arg7 harg7 arg8 harg8 arg9 harg9 arg10 harg10 arg11 harg11 arg12 harg12 _ _ _ _ _ p hp' x]
  have hz2 : (![0, 0] : Fin 2 → Nat) = fun _ => 0 := by funext a; fin_cases a <;> rfl
  have hz3 : (![0, 0, 0] : Fin 3 → Nat) = fun _ => 0 := by funext a; fin_cases a <;> rfl
  have hw : ∀ (mr : Memref sig .tc .vmem S1024x768 .bf16) (w : S1024x768.Idx → Elt Ideal .bf16),
      mr.view.read (Elt Ideal) (mr.view.writes (Elt Ideal) mr.view.junk
        [⟨Rect.unit (s := S1024x768) ![0, 0] S1024x768.size inb_S1024x768_S1024x768_0_0, w⟩]) = w := fun mr w => by
    rw [View.read_writes_eq_canon _ _ _ (fun y => ⟨_, List.mem_singleton_self _, View.mem_set_unit_zero hz2 inb_S1024x768_S1024x768_0_0 y⟩),
      View.canon_unit_zero hz2]
  simp only [View.readAt_eq_ld, harg1.read_unread, harg2.read_unread, harg3.read_unread, harg4.read_unread,
    harg5.read_unread, harg6.read_unread, harg7.read_unread, harg8.read_unread,
    View.ld_unit_zero (S := S1x1024x768) hz3, View.ld_unit_zero (S := S768x768) hz2, View.ld_unit_zero (S := S1x768) hz2]
  rw [hw arg10, hw arg11, hw arg12]
  exact congrFun (loopOut_projections h4 h5 h16 x0 x1 x2 x3 x4 x5 x6 x7) _

end Cert.Attn

end
-- ==== Proof.LibPlainDot.lean ====
/-
  Two general facts about finite sums, used where one program contracts a long axis in one product and another
  contracts the same axis block by block.

  * A sum over `Fin (n + n + n)` (or `Fin (n + n)`) is the sum of the sums over its consecutive blocks of
    length `n`. This holds in every commutative additive monoid, so in particular on the extended reals, where
    no cancellation or distributivity is available at the infinities and none is needed here.
  * A matrix product with plain dimension numbers (rows by `K` times `K` by columns, nothing batched), accumulated
    into the zero matrix and read at exact arithmetic, is at the entry `(p, c)` the sum over the contracted
    coordinate `a` of the left factor at `(p, a)` times the right factor at `(a, c)`.
-/
import Idealize.ShloMosaic.PureOps.Ideal.Laws
import Idealize.ShloMosaic.Lib.ValueIdx

noncomputable section

open scoped BigOperators

namespace Cert.LibPlainDot

open Idealize.ShloMosaic Idealize.ShloMosaic.ValueIdx

/-- A sum over three consecutive blocks of `n` indices is the sum of the three block sums. -/
theorem sum_three_blocks {M : Type*} [AddCommMonoid M] (n : Nat) (f : Fin (n + n + n) → M) :
    ∑ a, f a = (∑ a : Fin n, f ⟨a.val, by omega⟩ + ∑ a : Fin n, f ⟨n + a.val, by omega⟩)
      + ∑ a : Fin n, f ⟨n + n + a.val, by omega⟩ := by
  rw [Fin.sum_univ_add, Fin.sum_univ_add]
  rfl

/-- A sum over two consecutive blocks of `n` indices is the sum of the two block sums. -/
theorem sum_two_blocks {M : Type*} [AddCommMonoid M] (n : Nat) (f : Fin (n + n) → M) :
    ∑ a, f a = ∑ a : Fin n, f ⟨a.val, by omega⟩ + ∑ a : Fin n, f ⟨n + a.val, by omega⟩ := by
  rw [Fin.sum_univ_add]
  rfl

/-- The blocks of 64 inside 192 indices. -/
theorem sum_fin192 {M : Type*} [AddCommMonoid M] (f : Fin 192 → M) :
    ∑ a, f a = (∑ a : Fin 64, f ⟨a.val, by omega⟩ + ∑ a : Fin 64, f ⟨64 + a.val, by omega⟩)
      + ∑ a : Fin 64, f ⟨128 + a.val, by omega⟩ :=
  sum_three_blocks 64 f

/-- The blocks of 64 inside 128 indices. -/
theorem sum_fin128 {M : Type*} [AddCommMonoid M] (f : Fin 128 → M) :
    ∑ a, f a = ∑ a : Fin 64, f ⟨a.val, by omega⟩ + ∑ a : Fin 64, f ⟨64 + a.val, by omega⟩ :=
  sum_two_blocks 64 f

/-- A plain `R × K` by `K × C` product accumulated into the zero matrix, read at `(p, c)` in exact arithmetic:
    `∑ a, l (p, a) * r (a, c)`. The hypotheses `hl0 … hr1` say the dimension numbers are the plain ones: the left
    factor's index takes its row from the output index and its column from the contraction index, the right factor's
    its row from the contraction index and its column from the output index. -/
theorem matmul_zero_plain {R K C : Nat} {φ₁ φ₂ : FTy}
    (D : DotDims ⟨2, ![R, K]⟩ ⟨2, ![K, C]⟩ ⟨2, ![R, C]⟩) (hr : D.contr.rank = 1)
    (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (prec : Option ContractPrecision) (l : FVec Ideal ⟨2, ![R, K]⟩ φ₁) (r : FVec Ideal ⟨2, ![K, C]⟩ φ₂)
    (p : Fin R) (c : Fin C) :
    FloatOps.matmul D prec l r (constant ⟨2, ![R, C]⟩ .f32 0x00000000#32) (ix2 p c)
      = ∑ a : Fin K, l (ix2 p a) * r (ix2 a c) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Cert.LibPlainDot

end
-- ==== Proof.PayLin.lean ====
/-
  The three dense layers of the kernel body, read at one entry.

  Each of the three values is the product of the token block (cast from 1 × 1024 × 768 to 1024 × 768) with a
  transposed weight block, accumulated into zero, plus the bias row repeated over the 1024 token rows. The
  narrowing conversions and the same-shape casts are the identity in exact arithmetic, so the entry at token
  `n` and output feature `e` is `∑ d, x n d * W e d + b e`: row `n` of the dense layer.
-/
import proofs.«177509_j26268019982573_2_alg».proof.Proof.Gen.KernelIdeal.Skeleton
import proofs.«177509_j26268019982573_2_alg».proof.Proof.Block
import proofs.«177509_j26268019982573_2_alg».proof.Proof.LibPlainDot
import Idealize.ShloMosaic.Lib.ValueLayout
import Idealize.ShloMosaic.Lib.Pipeline.Value

noncomputable section

open scoped BigOperators

namespace Cert.Attn

open Cert.KernelIdeal Cert.KernelIdeal.Gen Idealize.ShloMosaic Idealize.ShloMosaic.ValueIdx

variable [Cert.KernelIdeal.Facts]

/-- The dimension numbers of the dense layers' product are the plain ones. The left index takes its row from the
    output index. -/
theorem payLin_lhs0 (i : S1024x768.Idx) (q : dot_S1024x768_S768x768_S1024x768_1_0_0_1_n_n.contr.Idx) :
    (dot_S1024x768_S768x768_S1024x768_1_0_0_1_n_n.lhsIdx i q 0).val = (i 0).val := by
  unfold DotDims.lhsIdx
  rw [dif_neg (show ¬(0 : Fin S1024x768.rank) ∈ dot_S1024x768_S768x768_S1024x768_1_0_0_1_n_n.lhsBatch by decide), dif_pos (show (0 : Fin S1024x768.rank) ∈ dot_S1024x768_S768x768_S1024x768_1_0_0_1_n_n.lhsNonContracting by decide)]
  rfl

/-- The left index takes its column from the contracted coordinate. -/
theorem payLin_lhs1 (i : S1024x768.Idx) (q : dot_S1024x768_S768x768_S1024x768_1_0_0_1_n_n.contr.Idx) :
    (dot_S1024x768_S768x768_S1024x768_1_0_0_1_n_n.lhsIdx i q 1).val = (q ⟨0, by decide⟩).val :=
  dot_S1024x768_S768x768_S1024x768_1_0_0_1_n_n.lhsIdx_val_of_single rfl i q

/-- The right index takes its row from the contracted coordinate. -/
theorem payLin_rhs0 (i : S1024x768.Idx) (q : dot_S1024x768_S768x768_S1024x768_1_0_0_1_n_n.contr.Idx) :
    (dot_S1024x768_S768x768_S1024x768_1_0_0_1_n_n.rhsIdx i q 0).val = (q ⟨0, by decide⟩).val :=
  dot_S1024x768_S768x768_S1024x768_1_0_0_1_n_n.rhsIdx_val_of_single rfl i q

/-- The right index takes its column from the output index. -/
theorem payLin_rhs1 (i : S1024x768.Idx) (q : dot_S1024x768_S768x768_S1024x768_1_0_0_1_n_n.contr.Idx) :
    (dot_S1024x768_S768x768_S1024x768_1_0_0_1_n_n.rhsIdx i q 1).val = (i 1).val := by
  unfold DotDims.rhsIdx
  rw [dif_neg (show ¬(1 : Fin S768x768.rank) ∈ dot_S1024x768_S768x768_S1024x768_1_0_0_1_n_n.rhsBatch by decide), dif_pos (show (1 : Fin S768x768.rank) ∈ dot_S1024x768_S768x768_S1024x768_1_0_0_1_n_n.rhsNonContracting by decide)]
  rfl

/-- The query layer: the product with the transposed weights into zero, plus the bias row, at token `n` and
    feature `e`. The narrowing conversion and the same-shape casts are the identity in exact arithmetic. -/
theorem pay4_apply (v0 : Vec Ideal S1x1024x768 .f32) (v3 : Vec Ideal S768x768 .bf16) (v6 : Vec Ideal S1x768 .f32) (n : Fin 1024) (e : Fin 768) :
    k0_pay4 (F := Ideal) v0 v3 v6 (ix2 n e) = linRow (xOf v0 n) (wOf v3) (bOf v6) e := by
  unfold k0_pay4
  simp only [shapeCast_self]
  have hm := Cert.LibPlainDot.matmul_zero_plain (φ₁ := .bf16) (φ₂ := .bf16) dot_S1024x768_S768x768_S1024x768_1_0_0_1_n_n rfl rfl
    payLin_lhs0 payLin_lhs1 payLin_rhs0 payLin_rhs1 none (k0_pay3 (F := Ideal) v0) v3 n e
  have hb := broadcastTo_1b_ab_apply v6 broadcasts_S1x768_S1024x768 n e
  have hx : ∀ d : Fin 768, (k0_pay3 (F := Ideal) v0 (ix2 n d) : EReal) = v0 (ix3 (0 : Fin 1) n d) := fun d =>
    shapeCast_1ab_ab_apply v0 shapeCasts_S1x1024x768_S1024x768 n d
  refine (congrArg₂ (· + ·) hm hb).trans ?_
  unfold linRow xOf wOf bOf
  simp only [hx]

/-- The key layer, read the same way. -/
theorem pay5_apply (v0 : Vec Ideal S1x1024x768 .f32) (v14 : Vec Ideal S768x768 .bf16) (v17 : Vec Ideal S1x768 .f32) (n : Fin 1024) (e : Fin 768) :
    k0_pay5 (F := Ideal) v0 v14 v17 (ix2 n e) = linRow (xOf v0 n) (wOf v14) (bOf v17) e := by
  unfold k0_pay5
  simp only [shapeCast_self]
  have hm := Cert.LibPlainDot.matmul_zero_plain (φ₁ := .bf16) (φ₂ := .bf16) dot_S1024x768_S768x768_S1024x768_1_0_0_1_n_n rfl rfl
    payLin_lhs0 payLin_lhs1 payLin_rhs0 payLin_rhs1 none (k0_pay3 (F := Ideal) v0) v14 n e
  have hb := broadcastTo_1b_ab_apply v17 broadcasts_S1x768_S1024x768 n e
  have hx : ∀ d : Fin 768, (k0_pay3 (F := Ideal) v0 (ix2 n d) : EReal) = v0 (ix3 (0 : Fin 1) n d) := fun d =>
    shapeCast_1ab_ab_apply v0 shapeCasts_S1x1024x768_S1024x768 n d
  refine (congrArg₂ (· + ·) hm hb).trans ?_
  unfold linRow xOf wOf bOf
  simp only [hx]

/-- The value layer, read the same way through one more same-shape cast. -/
theorem pay16_apply (v0 : Vec Ideal S1x1024x768 .f32) (v25 : Vec Ideal S768x768 .bf16) (v28 : Vec Ideal S1x768 .f32) (n : Fin 1024) (e : Fin 768) :
    k0_pay1 (F := Ideal) (k0_pay6 (F := Ideal) v0 v25 v28) (ix2 n e) = linRow (xOf v0 n) (wOf v25) (bOf v28) e := by
  unfold k0_pay1 k0_pay6
  simp only [shapeCast_self]
  have hm := Cert.LibPlainDot.matmul_zero_plain (φ₁ := .bf16) (φ₂ := .bf16) dot_S1024x768_S768x768_S1024x768_1_0_0_1_n_n rfl rfl
    payLin_lhs0 payLin_lhs1 payLin_rhs0 payLin_rhs1 none (k0_pay3 (F := Ideal) v0) v25 n e
  have hb := broadcastTo_1b_ab_apply v28 broadcasts_S1x768_S1024x768 n e
  have hx : ∀ d : Fin 768, (k0_pay3 (F := Ideal) v0 (ix2 n d) : EReal) = v0 (ix3 (0 : Fin 1) n d) := fun d =>
    shapeCast_1ab_ab_apply v0 shapeCasts_S1x1024x768_S1024x768 n d
  refine (congrArg₂ (· + ·) hm hb).trans ?_
  unfold linRow xOf wOf bOf
  simp only [hx]

end Cert.Attn

end
-- ==== Proof.LibRowDot.lean ====
/-
  A matrix product whose right factor is contracted along its SECOND axis: `x · wᵀ` without a separate transposition.

  A matrix unit fed an `R × K` left factor and an `N × K` right factor, with dimension numbers that contract the
  second axis of both (`[1] × [1]`, nothing batched), accumulated into the zero matrix and read at exact arithmetic, is
  at the entry `(p, n)` the sum over the contracted coordinate `a : Fin K` of `l (p, a) * r (n, a)`; accumulated into any
  matrix `acc` it is `acc (p, n)` plus that sum. The four hypotheses say the dimension numbers are the ones described:
  each factor's index takes its row from the output index (the left factor from the output's row, the right factor
  from the output's column) and its column from the contraction index. Any extents, any float formats of the factors.
-/
import Idealize.ShloMosaic.PureOps.Ideal.Laws
import Idealize.ShloMosaic.Lib.ValueIdx

noncomputable section

open scoped BigOperators

namespace Cert.LibRowDot

open Idealize.ShloMosaic Idealize.ShloMosaic.ValueIdx

/-- `x · wᵀ` accumulated into `acc`, read at `(p, n)` in exact arithmetic: `acc (p, n) + ∑ a, l (p, a) * r (n, a)`. -/
theorem matmul_rows {R K N : Nat} {φ₁ φ₂ : FTy}
    (D : DotDims ⟨2, ![R, K]⟩ ⟨2, ![N, K]⟩ ⟨2, ![R, N]⟩) (hr : D.contr.rank = 1)
    (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (i 1).val)
    (hr1 : ∀ i q, (D.rhsIdx i q 1).val = (q ⟨0, by omega⟩).val)
    (prec : Option ContractPrecision) (l : FVec Ideal ⟨2, ![R, K]⟩ φ₁) (r : FVec Ideal ⟨2, ![N, K]⟩ φ₂)
    (acc : FVec Ideal ⟨2, ![R, N]⟩ .f32) (p : Fin R) (n : Fin N) :
    FloatOps.matmul D prec l r acc (ix2 p n) = acc (ix2 p n) + ∑ a : Fin K, l (ix2 p a) * r (ix2 n a) := by
  rw [Ideal.matmul_apply, ← Equiv.sum_comp (contrEquiv1 D K hr hs).symm]
  refine congrArg (acc (ix2 p n) + ·) (Finset.sum_congr rfl fun k _ => ?_)
  have hk := contrEquiv1_symm_val D K hr hs k
  have el : D.lhsIdx (ix2 p n) ((contrEquiv1 D K hr hs).symm k) = ix2 p k := funext fun a => Fin.ext (by
    match a with
    | ⟨0, _⟩ => exact hl0 _ _
    | ⟨1, _⟩ => exact (hl1 _ _).trans hk)
  have er : D.rhsIdx (ix2 p n) ((contrEquiv1 D K hr hs).symm k) = ix2 n k := funext fun a => Fin.ext (by
    match a with
    | ⟨0, _⟩ => exact hr0 _ _
    | ⟨1, _⟩ => exact (hr1 _ _).trans hk)
  rw [el, er]

/-- The same accumulated into the zero matrix: the sum alone. -/
theorem matmul_rows_zero {R K N : Nat} {φ₁ φ₂ : FTy}
    (D : DotDims ⟨2, ![R, K]⟩ ⟨2, ![N, K]⟩ ⟨2, ![R, N]⟩) (hr : D.contr.rank = 1)
    (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (i 1).val)
    (hr1 : ∀ i q, (D.rhsIdx i q 1).val = (q ⟨0, by omega⟩).val)
    (prec : Option ContractPrecision) (l : FVec Ideal ⟨2, ![R, K]⟩ φ₁) (r : FVec Ideal ⟨2, ![N, K]⟩ φ₂)
    (p : Fin R) (n : Fin N) :
    FloatOps.matmul D prec l r (constant ⟨2, ![R, N]⟩ .f32 0x00000000#32) (ix2 p n)
      = ∑ a : Fin K, l (ix2 p a) * r (ix2 n a) := by
  rw [matmul_rows D hr hs hl0 hl1 hr0 hr1 prec l r _ p n]
  show Ideal.ofBits .f32 0x00000000#32 + _ = _
  rw [Ideal.ofBits_zero_f32, zero_add]

end Cert.LibRowDot

end
-- ==== Proof.LibLayout.lean ====
/-
  Three column forms of vector layout operations read at an index, for any extents: a vector of a values cast to a
  column [a, 1] reads the vector at the row; a column [a, 1] broadcast along a new last axis to [a, b] reads the
  column at the row; a single value [1, 1] broadcast to a column [a, 1] reads that value. (The row forms — a
  leading unit axis added or dropped, one row broadcast over many — are in the library already.)
-/
import Idealize.ShloMosaic.Lib.Pipeline.Value
import Idealize.ShloMosaic.Lib.ValueIdx

noncomputable section

namespace Cert.LibLayout

open Idealize.ShloMosaic Idealize.ShloMosaic.ValueIdx

variable {α : Type}

/-- An `[a]` array cast to the column `[a, 1]` reads, at `(p, z)`, the operand at `p`, whatever the unit coordinate `z`. -/
theorem shapeCast_a_a1_apply {a : ℕ} (x : (⟨1, ![a]⟩ : Shape).Idx → α) (h : (⟨1, ![a]⟩ : Shape).ShapeCasts ⟨2, ![a, 1]⟩)
    (p : Fin a) (z : Fin 1) : shapeCast ⟨2, ![a, 1]⟩ x h (ix2 p z) = x (ix1 p) :=
  shapeCast_apply x h _ _ (by
    have hz : z.val = 0 := by omega
    rw [Shape.rowMajor_val_two, Shape.rowMajor_val_one]
    show p.val = p.val * 1 + z.val
    rw [hz, Nat.mul_one, Nat.add_zero])

/-- A column `[a, 1]` broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A single value `[1, 1]` broadcast to a column `[a, 1]` reads that value at every row. -/
theorem broadcastTo_11_a1_apply {a : ℕ} (v : (⟨2, ![1, 1]⟩ : Shape).Idx → α) (h : (⟨2, ![1, 1]⟩ : Shape).Broadcasts ⟨2, ![a, 1]⟩)
    (p : Fin a) (z : Fin 1) : broadcastTo ⟨2, ![a, 1]⟩ v h (ix2 p z) = v (ix2 (0 : Fin 1) (0 : Fin 1)) := by
  refine broadcastTo_apply v h (ix2 p z) (ix2 (0 : Fin 1) (0 : Fin 1)) fun ax => ?_
  match ax with
  | ⟨0, _⟩ => rfl
  | ⟨1, _⟩ => rfl

end Cert.LibLayout

end
-- ==== Proof.LibVectorReads.lean ====
/-
  A few vector layout operations and sums read at an entry, in exact arithmetic, for any extents.

  * A bias vector of length `N` cast to one row `[1, N]` and repeated over `R` rows reads, at `(r, n)`, the vector at `n`.
  * A sum over the last axis of a rank-3 array reads, at `(r, m)`, the sum over the last coordinate; the same for a
    rank-2 array at `r`.
  * An `[A, B]` array cast to `[A, 1, B]` reads, at `(r, u, k)`, the operand at `(r, k)`.
  * A `[K, 1]` column cast to a vector of length `K` reads, at `k`, the column at `(k, 0)`.
  * An `[R, 1, C]` array repeated along the middle axis to `[R, n, C]` reads, at `(r, m, k)`, the operand at `(r, 0, k)`.
-/
import Idealize.ShloMosaic.Lib.ValueLayout
import Idealize.ShloMosaic.Lib.Pipeline.Value
import Idealize.ShloMosaic.PureOps.Ideal.Laws

noncomputable section

open scoped BigOperators

namespace Cert.LibVectorReads

open Idealize.ShloMosaic Idealize.ShloMosaic.ValueIdx

/-- A bias vector cast to one row and repeated over `R` rows reads, at `(r, n)`, the vector at `n`. -/
theorem bias_rows_apply {α : Type} {R N : ℕ} (b : (⟨1, ![N]⟩ : Shape).Idx → α)
    (hc : (⟨1, ![N]⟩ : Shape).ShapeCasts ⟨2, ![1, N]⟩) (hb : (⟨2, ![1, N]⟩ : Shape).Broadcasts ⟨2, ![R, N]⟩)
    (r : Fin R) (n : Fin N) :
    broadcastTo ⟨2, ![R, N]⟩ (shapeCast ⟨2, ![1, N]⟩ b hc) hb (ix2 r n) = b (ix1 n) := by
  rw [broadcastTo_1b_ab_apply, shapeCast_a_1a_apply]

/-- The sum over the last axis of an `[A, B, C]` array, at `(r, m)`. -/
theorem sum_last3_apply {A B C : ℕ} (src : FVec Ideal ⟨3, ![A, B, C]⟩ .f32)
    (h : (⟨3, ![A, B, C]⟩ : Shape).Reduces [(2 : Fin 3)] ⟨2, ![A, B]⟩) (hφ : FKind.Formats .f32)
    (hacc : (0x00000000#32 : BitVec 32) = FKind.add.neutral .f32 hφ) (r : Fin A) (m : Fin B) :
    multiReduction .add [(2 : Fin 3)] ⟨2, ![A, B]⟩ src 0x00000000#32 h hφ hacc (ix2 r m)
      = ∑ k : Fin C, src (ix3 r m k) := by
  refine (Ideal.multiReduction_add_single src _ h hφ hacc (ix2 r m)).trans ?_
  refine Finset.sum_congr rfl fun k _ => congrArg src ?_
  funext c
  apply Fin.ext
  match c with
  | ⟨0, _⟩ => rfl
  | ⟨1, _⟩ => rfl
  | ⟨2, _⟩ => rfl

/-- The sum over the last axis of an `[A, B]` array, at `r`. -/
theorem sum_last2_apply {A B : ℕ} (src : FVec Ideal ⟨2, ![A, B]⟩ .f32)
    (h : (⟨2, ![A, B]⟩ : Shape).Reduces [(1 : Fin 2)] ⟨1, ![A]⟩) (hφ : FKind.Formats .f32)
    (hacc : (0x00000000#32 : BitVec 32) = FKind.add.neutral .f32 hφ) (r : Fin A) :
    multiReduction .add [(1 : Fin 2)] ⟨1, ![A]⟩ src 0x00000000#32 h hφ hacc (ix1 r)
      = ∑ k : Fin B, src (ix2 r k) := by
  refine (Ideal.multiReduction_add_single src _ h hφ hacc (ix1 r)).trans ?_
  refine Finset.sum_congr rfl fun k _ => congrArg src ?_
  funext c
  apply Fin.ext
  match c with
  | ⟨0, _⟩ => rfl
  | ⟨1, _⟩ => rfl

/-- An `[A, B]` array cast to `[A, 1, B]` reads, at `(r, u, k)`, the operand at `(r, k)`. -/
theorem shapeCast_ab_a1b_apply {α : Type} {A B : ℕ} (x : (⟨2, ![A, B]⟩ : Shape).Idx → α)
    (h : (⟨2, ![A, B]⟩ : Shape).ShapeCasts ⟨3, ![A, 1, B]⟩) (r : Fin A) (u : Fin 1) (k : Fin B) :
    shapeCast ⟨3, ![A, 1, B]⟩ x h (ix3 r u k) = x (ix2 r k) :=
  shapeCast_apply x h _ _ (by
    have hu : u.val = 0 := by omega
    rw [Shape.rowMajor_val_two, Shape.rowMajor_val_three]
    show r.val * B + k.val = (r.val * 1 + u.val) * B + k.val
    rw [hu, Nat.mul_one, Nat.add_zero])

/-- A `[K, 1]` column cast to a vector reads, at `k`, the column at `(k, 0)`. -/
theorem shapeCast_a1_a_apply {α : Type} {K : ℕ} (x : (⟨2, ![K, 1]⟩ : Shape).Idx → α)
    (h : (⟨2, ![K, 1]⟩ : Shape).ShapeCasts ⟨1, ![K]⟩) (k : Fin K) :
    shapeCast ⟨1, ![K]⟩ x h (ix1 k) = x (ix2 k (0 : Fin 1)) :=
  shapeCast_apply x h _ _ (by
    rw [Shape.rowMajor_val_two, Shape.rowMajor_val_one]
    show k.val * 1 + 0 = k.val
    omega)

/-- An `[R, 1, C]` array repeated along the middle axis reads, at `(r, m, k)`, the operand at `(r, 0, k)`. -/
theorem repeat_mid_apply {α : Type} {R n C : ℕ} (v : (⟨3, ![R, 1, C]⟩ : Shape).Idx → α)
    (h : (⟨3, ![R, 1, C]⟩ : Shape).Broadcasts ⟨3, ![R, n, C]⟩) (r : Fin R) (m : Fin n) (k : Fin C) :
    broadcastTo ⟨3, ![R, n, C]⟩ v h (ix3 r m k) = v (ix3 r (0 : Fin 1) k) := by
  refine broadcastTo_apply v h (ix3 r m k) (ix3 r (0 : Fin 1) k) fun ax => ?_
  match ax with
  | ⟨0, _⟩ =>
    show r.val = if R = 1 then 0 else r.val
    split
    · have := r.isLt; omega
    · rfl
  | ⟨1, _⟩ => rfl
  | ⟨2, _⟩ =>
    show k.val = if C = 1 then 0 else k.val
    split
    · have := k.isLt; omega
    · rfl

end Cert.LibVectorReads

end
-- ==== Proof.PayAttn.lean ====
/-
  The attention payload of the kernel's loop body, read at one entry.

  One trip of the loop holds 256 query rows `q` (256 × 768), all 1024 key rows `k` and all 1024 value rows `v`
  (1024 × 768 each) and a 1 × 768 × 256 block `x` of the input in the transposed layout. It forms the scores
  `(q · kᵀ) · scale` (the key factor contracted along its second axis), takes each row's maximum, exponentiates the
  shifted scores, divides by the row's sum, multiplies the weights with the values, transposes the 256 × 768 result
  and adds `x`. Read at the entry `(0, d, r)` this is attention for query row `r` at feature `d`, plus `x (0, d, r)`.

  Every step is read at an entry by one lemma over a variable of the literal vector type; the theorem at the end
  chains them. Nothing needs finiteness: each step is the same exact operation as in the row-by-row statement.
-/
import proofs.«177509_j26268019982573_2_alg».proof.Proof.Gen.KernelIdeal.Skeleton
import proofs.«177509_j26268019982573_2_alg».proof.Proof.Spec
import proofs.«177509_j26268019982573_2_alg».proof.Proof.LibRowDot
import proofs.«177509_j26268019982573_2_alg».proof.Proof.LibPlainDot
import proofs.«177509_j26268019982573_2_alg».proof.Proof.LibLayout
import proofs.«177509_j26268019982573_2_alg».proof.Proof.LibVectorReads
import Idealize.ShloMosaic.PureOps.Ideal.Laws
import Idealize.ShloMosaic.Lib.ValueLayout
import Idealize.ShloMosaic.Lib.Pipeline.Value

noncomputable section

open scoped BigOperators

namespace Cert.Attn

open Cert.KernelIdeal Cert.KernelIdeal.Gen Idealize.ShloMosaic Idealize.ShloMosaic.ValueIdx

variable [Cert.KernelIdeal.Facts]

/-! ## The dimension numbers of the two products -/

/-- The scores product takes the left factor's row from the output's row. -/
theorem scoreDot_l0 (i : S256x1024.Idx) (q : dot_S256x768_S1024x768_S256x1024_1_1_0_0_n_n.contr.Idx) :
    (dot_S256x768_S1024x768_S256x1024_1_1_0_0_n_n.lhsIdx i q 0).val = (i 0).val := by
  unfold DotDims.lhsIdx
  rw [dif_neg (show ¬(0 : Fin S256x768.rank) ∈ dot_S256x768_S1024x768_S256x1024_1_1_0_0_n_n.lhsBatch by decide), dif_pos (show (0 : Fin S256x768.rank) ∈ dot_S256x768_S1024x768_S256x1024_1_1_0_0_n_n.lhsNonContracting by decide)]
  rfl

/-- The scores product takes the left factor's column from the contraction index. -/
theorem scoreDot_l1 (i : S256x1024.Idx) (q : dot_S256x768_S1024x768_S256x1024_1_1_0_0_n_n.contr.Idx) :
    (dot_S256x768_S1024x768_S256x1024_1_1_0_0_n_n.lhsIdx i q 1).val = (q ⟨0, by decide⟩).val :=
  dot_S256x768_S1024x768_S256x1024_1_1_0_0_n_n.lhsIdx_val_of_single rfl i q

/-- The scores product takes the right factor's ROW from the output's column: the right factor enters transposed. -/
theorem scoreDot_r0 (i : S256x1024.Idx) (q : dot_S256x768_S1024x768_S256x1024_1_1_0_0_n_n.contr.Idx) :
    (dot_S256x768_S1024x768_S256x1024_1_1_0_0_n_n.rhsIdx i q 0).val = (i 1).val := by
  unfold DotDims.rhsIdx
  rw [dif_neg (show ¬(0 : Fin S1024x768.rank) ∈ dot_S256x768_S1024x768_S256x1024_1_1_0_0_n_n.rhsBatch by decide), dif_pos (show (0 : Fin S1024x768.rank) ∈ dot_S256x768_S1024x768_S256x1024_1_1_0_0_n_n.rhsNonContracting by decide)]
  rfl

/-- The scores product takes the right factor's column from the contraction index. -/
theorem scoreDot_r1 (i : S256x1024.Idx) (q : dot_S256x768_S1024x768_S256x1024_1_1_0_0_n_n.contr.Idx) :
    (dot_S256x768_S1024x768_S256x1024_1_1_0_0_n_n.rhsIdx i q 1).val = (q ⟨0, by decide⟩).val :=
  dot_S256x768_S1024x768_S256x1024_1_1_0_0_n_n.rhsIdx_val_of_single rfl i q

/-- The mixing product takes the left factor's row from the output's row. -/
theorem mixDot_l0 (i : S256x768.Idx) (q : dot_S256x1024_S1024x768_S256x768_1_0_0_1_n_n.contr.Idx) :
    (dot_S256x1024_S1024x768_S256x768_1_0_0_1_n_n.lhsIdx i q 0).val = (i 0).val := by
  unfold DotDims.lhsIdx
  rw [dif_neg (show ¬(0 : Fin S256x1024.rank) ∈ dot_S256x1024_S1024x768_S256x768_1_0_0_1_n_n.lhsBatch by decide), dif_pos (show (0 : Fin S256x1024.rank) ∈ dot_S256x1024_S1024x768_S256x768_1_0_0_1_n_n.lhsNonContracting by decide)]
  rfl

/-- The mixing product takes the left factor's column from the contraction index. -/
theorem mixDot_l1 (i : S256x768.Idx) (q : dot_S256x1024_S1024x768_S256x768_1_0_0_1_n_n.contr.Idx) :
    (dot_S256x1024_S1024x768_S256x768_1_0_0_1_n_n.lhsIdx i q 1).val = (q ⟨0, by decide⟩).val :=
  dot_S256x1024_S1024x768_S256x768_1_0_0_1_n_n.lhsIdx_val_of_single rfl i q

/-- The mixing product takes the right factor's row from the contraction index. -/
theorem mixDot_r0 (i : S256x768.Idx) (q : dot_S256x1024_S1024x768_S256x768_1_0_0_1_n_n.contr.Idx) :
    (dot_S256x1024_S1024x768_S256x768_1_0_0_1_n_n.rhsIdx i q 0).val = (q ⟨0, by decide⟩).val :=
  dot_S256x1024_S1024x768_S256x768_1_0_0_1_n_n.rhsIdx_val_of_single rfl i q

/-- The mixing product takes the right factor's column from the output's column. -/
theorem mixDot_r1 (i : S256x768.Idx) (q : dot_S256x1024_S1024x768_S256x768_1_0_0_1_n_n.contr.Idx) :
    (dot_S256x1024_S1024x768_S256x768_1_0_0_1_n_n.rhsIdx i q 1).val = (i 1).val := by
  unfold DotDims.rhsIdx
  rw [dif_neg (show ¬(1 : Fin S1024x768.rank) ∈ dot_S256x1024_S1024x768_S256x768_1_0_0_1_n_n.rhsBatch by decide), dif_pos (show (1 : Fin S1024x768.rank) ∈ dot_S256x1024_S1024x768_S256x768_1_0_0_1_n_n.rhsNonContracting by decide)]
  rfl

/-! ## The steps, each read at an entry -/

/-- The scores: the product with the keys contracted along their second axis, times the splat scale, at `(r, j)` is
    the scaled inner product of query row `r` with key row `j`. -/
theorem scores_apply (v40 : FVec Ideal S256x768 .bf16) (v41 : FVec Ideal S1024x768 .bf16) (r : Fin 256) (j : Fin 1024) :
    mulf (matmul dot_S256x768_S1024x768_S256x1024_1_1_0_0_n_n none v40 v41 (constant (F := Ideal) S256x1024 .f32 0x00000000#32))
        (broadcast S256x1024 (Scalar.ofBits (F := Ideal) .f32 0x3D13CD3A#32)) (ix2 r j)
      = scoreRow (fun e => v40 (ix2 r e)) (fun j e => v41 (ix2 j e)) j := by
  show FloatOps.matmul dot_S256x768_S1024x768_S256x1024_1_1_0_0_n_n none v40 v41 (constant (F := Ideal) S256x1024 .f32 0x00000000#32) (ix2 r j)
      * Ideal.ofBits .f32 0x3D13CD3A#32 = _
  rw [Cert.LibRowDot.matmul_rows_zero dot_S256x768_S1024x768_S256x1024_1_1_0_0_n_n rfl rfl scoreDot_l0 scoreDot_l1 scoreDot_r0 scoreDot_r1 none v40 v41 r j]
  rfl

/-- The maximum over the key axis, at row `r`, is the fold of `max` from minus infinity over that row. -/
theorem rowmax_apply (s : FVec Ideal S256x1024 .f32) (r : Fin 256) :
    multiReduction (F := Ideal) .maximumf [1] S256 s 0xFF800000#32 reduces_S256x1024_S256 (.inl rfl) rfl (ix1 r)
      = rowMax (fun j => s (ix2 r j)) := by
  refine (Ideal.multiReduction_maximumf_single s _ reduces_S256x1024_S256 (.inl rfl) rfl (ix1 r)).trans ?_
  show Finset.fold max (Ideal.ofBits .f32 0xFF800000#32)
      (fun j : Fin 1024 => s (reduces_S256x1024_S256.lift (ix1 r) j)) Finset.univ = _
  refine congrArg (fun f => Finset.fold max (Ideal.ofBits .f32 0xFF800000#32) f (Finset.univ : Finset (Fin 1024))) ?_
  funext j
  refine congrArg s ?_
  funext c
  apply Fin.ext
  match c with
  | ⟨0, _⟩ => rfl
  | ⟨1, _⟩ => rfl

/-- A vector of 256 row values cast to a column and repeated along the key axis reads, at `(r, j)`, the value of row `r`. -/
theorem column_apply {α : Type} (m : S256.Idx → α) (r : Fin 256) (j : Fin 1024) :
    broadcastTo S256x1024 (shapeCast S256x1 m shapeCasts_S256_S256x1) broadcasts_S256x1_S256x1024 (ix2 r j) = m (ix1 r) :=
  (Cert.LibLayout.broadcastTo_a1_ab_apply _ broadcasts_S256x1_S256x1024 r j).trans
    (Cert.LibLayout.shapeCast_a_a1_apply m shapeCasts_S256_S256x1 r (0 : Fin 1))

/-- The shifted exponentials of a 256 × 1024 matrix of scores. -/
def expBlock (s : FVec Ideal S256x1024 .f32) : FVec Ideal S256x1024 .f32 :=
  exp (subf s (broadcastTo S256x1024 (shapeCast S256x1
    (multiReduction (F := Ideal) .maximumf [1] S256 s 0xFF800000#32 reduces_S256x1024_S256 (.inl rfl) rfl)
    shapeCasts_S256_S256x1) broadcasts_S256x1_S256x1024))

/-- At `(r, j)` it is the exponential of score `j` of row `r` minus that row's maximum. -/
theorem expBlock_apply (s : FVec Ideal S256x1024 .f32) (r : Fin 256) (j : Fin 1024) :
    expBlock s (ix2 r j) = expRow (fun j => s (ix2 r j)) j := by
  show Ideal.exp (s (ix2 r j) - broadcastTo S256x1024 (shapeCast S256x1
    (multiReduction (F := Ideal) .maximumf [1] S256 s 0xFF800000#32 reduces_S256x1024_S256 (.inl rfl) rfl)
    shapeCasts_S256_S256x1) broadcasts_S256x1_S256x1024 (ix2 r j)) = _
  rw [column_apply, rowmax_apply]
  rfl

/-- The softmax weights of a 256 × 1024 matrix of scores, rounded to the narrower format (the identity at exact arithmetic). -/
def softBlock (s : FVec Ideal S256x1024 .f32) : FVec Ideal S256x1024 .bf16 :=
  truncf .bf16 (divf (expBlock s) (broadcastTo S256x1024 (shapeCast S256x1
    (multiReduction (F := Ideal) .add [1] S256 (expBlock s) 0x00000000#32 reduces_S256x1024_S256 (.inl rfl) rfl)
    shapeCasts_S256_S256x1) broadcasts_S256x1_S256x1024)) bitsLt_bf16_f32

/-- At `(r, j)` it is weight `j` of the softmax of row `r`. -/
theorem softBlock_apply (s : FVec Ideal S256x1024 .f32) (r : Fin 256) (j : Fin 1024) :
    softBlock s (ix2 r j) = softRow (fun j => s (ix2 r j)) j := by
  show Ideal.div (expBlock s (ix2 r j)) (broadcastTo S256x1024 (shapeCast S256x1
    (multiReduction (F := Ideal) .add [1] S256 (expBlock s) 0x00000000#32 reduces_S256x1024_S256 (.inl rfl) rfl)
    shapeCasts_S256_S256x1) broadcasts_S256x1_S256x1024 (ix2 r j)) = _
  rw [column_apply, Cert.LibVectorReads.sum_last2_apply (expBlock s) reduces_S256x1024_S256 (.inl rfl) rfl r, expBlock_apply]
  refine congrArg (Ideal.div _) (Finset.sum_congr rfl fun k _ => expBlock_apply s r k)

/-- The transposition of the mixed values: entry `(d, r)` of the result is entry `(r, d)` of the operand. -/
theorem transpose_apply_dr {α : Type} (x : S256x768.Idx → α) (d : Fin 768) (r : Fin 256) :
    transpose S768x256 [1, 0] x transposes_S256x768_p1_0_S768x256 (ix2 d r) = x (ix2 r d) := by
  refine transpose_apply [1, 0] x transposes_S256x768_p1_0_S768x256 (ix2 d r) (ix2 r d) fun b => ?_
  match b with
  | ⟨0, _⟩ => rfl
  | ⟨1, _⟩ => rfl

/-! ## The payload at an entry -/

/-- The block the loop body stores, at `(0, d, r)`: attention for query row `r` at feature `d`, plus the input block there. -/
theorem pay2_apply (v40 : Vec Ideal S256x768 .bf16) (v41 v55 : Vec Ideal S1024x768 .bf16) (v59 : Vec Ideal S1x768x256 .f32) (d : Fin 768) (r : Fin 256) :
    k0_pay2 (F := Ideal) v40 v41 v55 v59 (ix3 (0 : Fin 1) d r)
      = attendRow (fun e => v40 (ix2 r e)) (fun j e => v41 (ix2 j e)) (fun j d' => v55 (ix2 j d')) d + v59 (ix3 (0 : Fin 1) d r) := by
  unfold k0_pay2
  refine (shapeCast_ab_1ab_apply _ shapeCasts_S768x256_S1x768x256 (0 : Fin 1) d r).trans ?_
  refine congrArg₂ (· + ·) ?_ (shapeCast_1ab_ab_apply v59 shapeCasts_S1x768x256_S768x256 d r)
  refine (transpose_apply_dr _ d r).trans ?_
  refine (Cert.LibPlainDot.matmul_zero_plain dot_S256x1024_S1024x768_S256x768_1_0_0_1_n_n rfl rfl mixDot_l0 mixDot_l1 mixDot_r0 mixDot_r1 none
    (softBlock (mulf (matmul dot_S256x768_S1024x768_S256x1024_1_1_0_0_n_n none v40 v41 (constant (F := Ideal) S256x1024 .f32 0x00000000#32))
        (broadcast S256x1024 (Scalar.ofBits (F := Ideal) .f32 0x3D13CD3A#32)))) v55 r d).trans ?_
  show _ = ∑ j : Fin 1024, softRow (scoreRow (fun e => v40 (ix2 r e)) (fun j e => v41 (ix2 j e))) j * v55 (ix2 j d)
  refine Finset.sum_congr rfl fun a _ => congrArg (· * v55 (ix2 a d)) ?_
  rw [softBlock_apply]
  exact congrArg (fun s => softRow s a) (funext fun j => scores_apply v40 v41 r j)

end Cert.Attn

end
-- ==== Proof.Pieces.lean ====
/-
  What the kernel body leaves in its output block at a grid point: the head's output for the point's batch
  element in the transposed layout, plus the point's residual block.
-/
import proofs.«177509_j26268019982573_2_alg».proof.Proof.BodyRun
import proofs.«177509_j26268019982573_2_alg».proof.Proof.PayLin
import proofs.«177509_j26268019982573_2_alg».proof.Proof.PayAttn

noncomputable section

namespace Cert.Attn

open Cert.KernelIdeal Cert.KernelIdeal.Gen Idealize.ShloMosaic Idealize.ShloMosaic.ValueIdx

/-- At every grid point the body's output block is `blockOut` of the point's input blocks. -/
theorem outsAt0_eq (m : (ℓ : Loc nD τ sig) → Buf (Elt Ideal) ℓ) (c : Dev nD) (t : Fin cfg0.N) :
    outsAt0 (F := Ideal) m c t
      = blockOut (iblk m c 0 t) (iblk m c 1 t) (iblk m c 2 t) (iblk m c 3 t) (iblk m c 4 t) (iblk m c 5 t)
          (iblk m c 6 t) (iblk m c 7 t) := by
  unfold outsAt0
  exact out_block (fun v40 v41 v55 v59 d r => pay2_apply v40 v41 v55 v59 d r)
    (fun v0 w b n e => pay4_apply v0 w b n e) (fun v0 w b n e => pay5_apply v0 w b n e)
    (fun v0 w b n e => pay16_apply v0 w b n e)
    c (grid0.coords t) (ms0_0 t) (hs0_0 t) (ms0_1 t) (hs0_1 t) (ms0_2 t) (hs0_2 t) (ms0_3 t) (hs0_3 t) (ms0_4 t) (hs0_4 t)
    (ms0_5 t) (hs0_5 t) (ms0_6 t) (hs0_6 t) (ms0_7 t) (hs0_7 t) (ms0_8 t) (hs0_8 t) scM0_0 (Memref.isWhole_whole _)
    scM0_1 (Memref.isWhole_whole _) scM0_2 (Memref.isWhole_whole _) (iblk m c 0 t) (iblk m c 1 t) (iblk m c 2 t)
    (iblk m c 3 t) (iblk m c 4 t) (iblk m c 5 t) (iblk m c 6 t) (iblk m c 7 t)

end Cert.Attn

end
-- ==== Proof.Cover.lean ====
/-
  From the kernel's output block at each grid point to the whole array its region leaves.

  The grid has sixteen points and point `t` handles batch element `t`: it reads batch element `t` of the
  token array and of its re-laid copy, the three weight matrices and the three biases whole, and writes
  batch element `t` of the output array. So the sixteen output blocks tile the output array along the batch axis,
  and entry `(b, d, n)` of the array is entry `(0, d, n)` of the block of batch element `b`.
-/
import proofs.«177509_j26268019982573_2_alg».proof.Proof.Pieces
import Idealize.ShloMosaic.Lib.Pipeline.Value

noncomputable section

namespace Cert.Attn

open Cert.KernelIdeal Cert.KernelIdeal.Gen Idealize.ShloMosaic Idealize.ShloMosaic.ValueIdx Idealize.SL.Sem

/-- The block index of every window at every grid point: the three batched windows sit at block `(t, 0, 0)`, the
    six whole-array windows at block `(0, 0)`. Decided over the sixteen points. -/
theorem block_index : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_8.index t (0 : Fin 3) = t.val ∧ win0_8.index t (1 : Fin 3) = 0 ∧ win0_8.index t (2 : Fin 3) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0) :=
  (by decide +kernel : ∀ t : Fin grid0.N, _)

variable (m : (ℓ : Loc nD τ sig) → Buf (Elt Ideal) ℓ) (c : Dev nD)

/-- The token block at point `t` is batch element `t` of the token array. -/
theorem tokens_block (t : Fin cfg0.N) (b : Fin 16) (hb : b.val = t.val) :
    (iblk m c 0 t : Vec Ideal S1x1024x768 .f32) = batchX (V m c main_arg0) b := by
  obtain ⟨⟨e0, e1, e2⟩, -⟩ := block_index t
  funext y
  unfold iblk batchX
  rw [View.read_apply]
  show V m c main_arg0 (((cfg0.win 0).blk t).view.emb y) = V m c main_arg0 (ix3 b (y 1) (y 2))
  refine congrArg _ (funext fun a => Fin.ext ?_)
  match a with
  | ⟨0, _⟩ => show win0_0.index t (0 : Fin 3) * 1 + 1 * (y 0).val = b.val; have hy : (y 0).val < 1 := (y 0).isLt; omega
  | ⟨1, _⟩ => show win0_0.index t (1 : Fin 3) * 1024 + 1 * (y 1).val = (y 1).val; omega
  | ⟨2, _⟩ => show win0_0.index t (2 : Fin 3) * 768 + 1 * (y 2).val = (y 2).val; omega

/-- The re-laid token block at point `t` is batch element `t` of the re-laid token array. -/
theorem relaid_block (t : Fin cfg0.N) (b : Fin 16) (hb : b.val = t.val) :
    (iblk m c 1 t : Vec Ideal S1x768x1024 .f32) = batchR (V m c main_v9) b := by
  obtain ⟨-, ⟨e0, e1, e2⟩, -⟩ := block_index t
  funext y
  unfold iblk batchR
  rw [View.read_apply]
  show V m c main_v9 (((cfg0.win 1).blk t).view.emb y) = V m c main_v9 (ix3 b (y 1) (y 2))
  refine congrArg _ (funext fun a => Fin.ext ?_)
  match a with
  | ⟨0, _⟩ => show win0_1.index t (0 : Fin 3) * 1 + 1 * (y 0).val = b.val; have hy : (y 0).val < 1 := (y 0).isLt; omega
  | ⟨1, _⟩ => show win0_1.index t (1 : Fin 3) * 768 + 1 * (y 1).val = (y 1).val; omega
  | ⟨2, _⟩ => show win0_1.index t (2 : Fin 3) * 1024 + 1 * (y 2).val = (y 2).val; omega

/-- The query weights' block is the whole matrix at every point. -/
theorem wq_block (t : Fin cfg0.N) : (iblk m c 2 t : Vec Ideal S768x768 .bf16) = V m c main_v1 := by
  obtain ⟨-, -, -, ⟨e0, e1⟩, -, -, -, -, -⟩ := block_index t
  funext y
  unfold iblk
  rw [View.read_apply]
  show V m c main_v1 (((cfg0.win 2).blk t).view.emb y) = V m c main_v1 y
  refine congrArg _ (funext fun a => Fin.ext ?_)
  match a with
  | ⟨0, _⟩ => show win0_2.index t (0 : Fin 2) * 768 + 1 * (y 0).val = (y 0).val; omega
  | ⟨1, _⟩ => show win0_2.index t (1 : Fin 2) * 768 + 1 * (y 1).val = (y 1).val; omega

/-- The query bias's block is the whole row at every point. -/
theorem bq_block (t : Fin cfg0.N) : (iblk m c 3 t : Vec Ideal S1x768 .f32) = V m c main_v6 := by
  obtain ⟨-, -, -, -, ⟨e0, e1⟩, -, -, -, -⟩ := block_index t
  funext y
  unfold iblk
  rw [View.read_apply]
  show V m c main_v6 (((cfg0.win 3).blk t).view.emb y) = V m c main_v6 y
  refine congrArg _ (funext fun a => Fin.ext ?_)
  match a with
  | ⟨0, _⟩ => show win0_3.index t (0 : Fin 2) * 1 + 1 * (y 0).val = (y 0).val; omega
  | ⟨1, _⟩ => show win0_3.index t (1 : Fin 2) * 768 + 1 * (y 1).val = (y 1).val; omega

/-- The key weights' block is the whole matrix at every point. -/
theorem wk_block (t : Fin cfg0.N) : (iblk m c 4 t : Vec Ideal S768x768 .bf16) = V m c main_v3 := by
  obtain ⟨-, -, -, -, -, ⟨e0, e1⟩, -, -, -⟩ := block_index t
  funext y
  unfold iblk
  rw [View.read_apply]
  show V m c main_v3 (((cfg0.win 4).blk t).view.emb y) = V m c main_v3 y
  refine congrArg _ (funext fun a => Fin.ext ?_)
  match a with
  | ⟨0, _⟩ => show win0_4.index t (0 : Fin 2) * 768 + 1 * (y 0).val = (y 0).val; omega
  | ⟨1, _⟩ => show win0_4.index t (1 : Fin 2) * 768 + 1 * (y 1).val = (y 1).val; omega

/-- The key bias's block is the whole row at every point. -/
theorem bk_block (t : Fin cfg0.N) : (iblk m c 5 t : Vec Ideal S1x768 .f32) = V m c main_v7 := by
  obtain ⟨-, -, -, -, -, -, ⟨e0, e1⟩, -, -⟩ := block_index t
  funext y
  unfold iblk
  rw [View.read_apply]
  show V m c main_v7 (((cfg0.win 5).blk t).view.emb y) = V m c main_v7 y
  refine congrArg _ (funext fun a => Fin.ext ?_)
  match a with
  | ⟨0, _⟩ => show win0_5.index t (0 : Fin 2) * 1 + 1 * (y 0).val = (y 0).val; omega
  | ⟨1, _⟩ => show win0_5.index t (1 : Fin 2) * 768 + 1 * (y 1).val = (y 1).val; omega

/-- The value weights' block is the whole matrix at every point. -/
theorem wv_block (t : Fin cfg0.N) : (iblk m c 6 t : Vec Ideal S768x768 .bf16) = V m c main_v5 := by
  obtain ⟨-, -, -, -, -, -, -, ⟨e0, e1⟩, -⟩ := block_index t
  funext y
  unfold iblk
  rw [View.read_apply]
  show V m c main_v5 (((cfg0.win 6).blk t).view.emb y) = V m c main_v5 y
  refine congrArg _ (funext fun a => Fin.ext ?_)
  match a with
  | ⟨0, _⟩ => show win0_6.index t (0 : Fin 2) * 768 + 1 * (y 0).val = (y 0).val; omega
  | ⟨1, _⟩ => show win0_6.index t (1 : Fin 2) * 768 + 1 * (y 1).val = (y 1).val; omega

/-- The value bias's block is the whole row at every point. -/
theorem bv_block (t : Fin cfg0.N) : (iblk m c 7 t : Vec Ideal S1x768 .f32) = V m c main_v8 := by
  obtain ⟨-, -, -, -, -, -, -, -, ⟨e0, e1⟩⟩ := block_index t
  funext y
  unfold iblk
  rw [View.read_apply]
  show V m c main_v8 (((cfg0.win 7).blk t).view.emb y) = V m c main_v8 y
  refine congrArg _ (funext fun a => Fin.ext ?_)
  match a with
  | ⟨0, _⟩ => show win0_7.index t (0 : Fin 2) * 1 + 1 * (y 0).val = (y 0).val; omega
  | ⟨1, _⟩ => show win0_7.index t (1 : Fin 2) * 768 + 1 * (y 1).val = (y 1).val; omega

/-- Equal blocks and equal places give equal entries of the output block. -/
theorem blockOut_congr {x0 x0' : Vec Ideal S1x1024x768 .f32} {x1 x1' : Vec Ideal S1x768x1024 .f32}
    {x2 x2' : Vec Ideal S768x768 .bf16} {x3 x3' : Vec Ideal S1x768 .f32} {x4 x4' : Vec Ideal S768x768 .bf16}
    {x5 x5' : Vec Ideal S1x768 .f32} {x6 x6' : Vec Ideal S768x768 .bf16} {x7 x7' : Vec Ideal S1x768 .f32}
    {y y' : S1x768x1024.Idx} (h0 : x0 = x0') (h1 : x1 = x1') (h2 : x2 = x2') (h3 : x3 = x3') (h4 : x4 = x4')
    (h5 : x5 = x5') (h6 : x6 = x6') (h7 : x7 = x7') (hy : y = y') :
    blockOut x0 x1 x2 x3 x4 x5 x6 x7 y = blockOut x0' x1' x2' x3' x4' x5' x6' x7' y' := by
  subst h0 h1 h2 h3 h4 h5 h6 h7 hy; rfl

/-- What point `t` writes back is block `t` of the region's array: entry `(0, d, n)` of the point's output block
    sits in the array at `(t, d, n)`, where the region's array holds the block of batch element `t` at `(0, d, n)`. -/
theorem written_back (t : Fin cfg0.N) :
    (dats (F := Ideal) m 0 c).flushed 8 t = ((cfg0.win 8).blk t).view.read (Elt Ideal) (regionOut (V m c main_arg0) (V m c main_v9) (V m c main_v1) (V m c main_v6) (V m c main_v3) (V m c main_v7) (V m c main_v5) (V m c main_v8)) := by
  show (cfg0.win 8).cut (grid0.coords t) ((dats m 0 c).after 8 t) = _
  rw [after0_8, outsAt0_eq]
  obtain ⟨-, -, ⟨e0, e1, e2⟩, -⟩ := block_index t
  funext y
  rw [View.read_apply]
  have hb : ((((cfg0.win 8).blk t).view.emb y) 0).val = t.val := by
    show win0_8.index t (0 : Fin 3) * 1 + 1 * (y 0).val = t.val
    have hy : (y 0).val < 1 := (y 0).isLt
    omega
  have hd : (((cfg0.win 8).blk t).view.emb y) 1 = y 1 :=
    Fin.ext (by show win0_8.index t (1 : Fin 3) * 768 + 1 * (y 1).val = (y 1).val; omega)
  have hn : (((cfg0.win 8).blk t).view.emb y) 2 = y 2 :=
    Fin.ext (by show win0_8.index t (2 : Fin 3) * 1024 + 1 * (y 2).val = (y 2).val; omega)
  have hy : y = ix3 (0 : Fin 1) ((((cfg0.win 8).blk t).view.emb y) 1) ((((cfg0.win 8).blk t).view.emb y) 2) := by
    rw [hd, hn]
    funext a
    match a with
    | ⟨0, _⟩ => exact Fin.ext (by have h : (y 0).val < 1 := (y 0).isLt; show (y 0).val = 0; omega)
    | ⟨1, _⟩ => rfl
    | ⟨2, _⟩ => rfl
  show blockOut (iblk m c 0 t) (iblk m c 1 t) (iblk m c 2 t) (iblk m c 3 t) (iblk m c 4 t) (iblk m c 5 t) (iblk m c 6 t)
      (iblk m c 7 t) y
    = blockOut (batchX (V m c main_arg0) ((((cfg0.win 8).blk t).view.emb y) 0))
        (batchR (V m c main_v9) ((((cfg0.win 8).blk t).view.emb y) 0)) (V m c main_v1) (V m c main_v6) (V m c main_v3)
        (V m c main_v7) (V m c main_v5) (V m c main_v8)
        (ix3 (0 : Fin 1) ((((cfg0.win 8).blk t).view.emb y) 1) ((((cfg0.win 8).blk t).view.emb y) 2))
  exact blockOut_congr (tokens_block m c t _ hb) (relaid_block m c t _ hb) (wq_block m c t) (bq_block m c t)
    (wk_block m c t) (bk_block m c t) (wv_block m c t) (bv_block m c t) hy

/-- An index of the output array lies in point `t`'s block iff each coordinate lies in the block's range on its axis. -/
theorem mem_block (t : Fin cfg0.N) (i : S16x768x1024.Idx) :
    i ∈ ((cfg0.win 8).blk t).view.set
      ↔ ∀ a : Fin 3, win0_8.index t a * S1x768x1024.size a ≤ (i a).val
          ∧ (i a).val < win0_8.index t a * S1x768x1024.size a + S1x768x1024.size a := by
  show i ∈ ((View.whole main_v10).slice (win0_8.rect t)).set ↔ _
  rw [View.set_slice_whole, Rect.mem_set_unit]
  exact Iff.rfl

/-- Every index of the output array is in some point's block: batch element `b` is written by point `b`. -/
theorem covered (i : S16x768x1024.Idx) :
    ∃ t : Fin cfg0.N, (cfg0.win 8).flush t = true ∧ i ∈ ((cfg0.win 8).blk t).view.set := by
  have h0 : (i 0).val < 16 := (i 0).isLt
  have h1 : (i 1).val < 768 := (i 1).isLt
  have h2 : (i 2).val < 1024 := (i 2).isLt
  obtain ⟨t, ht⟩ : ∃ t : Fin cfg0.N, t.val = (i 0).val := ⟨⟨(i 0).val, by rw [show cfg0.N = 16 from N_0]; exact h0⟩, rfl⟩
  obtain ⟨-, -, ⟨e0, e1, e2⟩, -⟩ := block_index t
  refine ⟨t, flush0_8 t, ?_⟩
  rw [mem_block]
  intro a
  match a with
  | ⟨0, _⟩ => show win0_8.index t (0 : Fin 3) * 1 ≤ (i 0).val ∧ (i 0).val < win0_8.index t (0 : Fin 3) * 1 + 1; omega
  | ⟨1, _⟩ => show win0_8.index t (1 : Fin 3) * 768 ≤ (i 1).val ∧ (i 1).val < win0_8.index t (1 : Fin 3) * 768 + 768; omega
  | ⟨2, _⟩ => show win0_8.index t (2 : Fin 3) * 1024 ≤ (i 2).val ∧ (i 2).val < win0_8.index t (2 : Fin 3) * 1024 + 1024; omega

/-- The output array after the region: batch element by batch element, the kernel's output block. -/
theorem region_array (m : (ℓ : Loc nD τ sig) → Buf (Elt Ideal) ℓ) (c : Dev nD) :
    (dats (F := Ideal) m 0 c).arrAt 8 cfg0.N
      = regionOut (V m c main_arg0) (V m c main_v9) (V m c main_v1) (V m c main_v6) (V m c main_v3) (V m c main_v7) (V m c main_v5) (V m c main_v8) :=
  (dats (F := Ideal) m 0 c).arrAt_eq_of_cover 8 (regionOut (V m c main_arg0) (V m c main_v9) (V m c main_v1) (V m c main_v6) (V m c main_v3) (V m c main_v7) (V m c main_v5) (V m c main_v8)) (fun t _ => written_back m c t) covered

end Cert.Attn

end
-- ==== Proof.HostSide.lean ====
/-
  The host operations of the kernel's program around its region, read at an index.

  Before the region the program transposes each of the three weight matrices (and converts it to the narrower
  float type, which over the extended reals changes nothing), gives each of the three bias vectors a leading unit
  axis, and reshapes the token array from 16 x 1024 x 768 to 16 x 768 x 1024 (the same row-major order of entries).
  After the region it reshapes the region's 16 x 768 x 1024 result back to 16 x 1024 x 768.
-/
import proofs.«177509_j26268019982573_2_alg».proof.Proof.Gen.KernelIdeal.Frame
import proofs.«177509_j26268019982573_2_alg».proof.Proof.Block
import Idealize.ShloMosaic.Lib.StableHlo.Run
import Idealize.ShloMosaic.Lib.Pipeline.Value
import Idealize.ShloMosaic.Lib.ValueLayout

noncomputable section

namespace Cert.Attn

open Cert.KernelIdeal Cert.KernelIdeal.Gen Idealize.ShloMosaic Idealize.ShloMosaic.ValueIdx Idealize.SL.Sem

/-- A 768 x 768 matrix transposed and then converted to the narrower float type reads, at `(d, e)`, the matrix at
    `(e, d)`: over the extended reals the conversion is the identity. -/
private theorem transposed_read (x : S768x768.Idx → EReal) (e d : Fin 768) :
    (truncf .bf16 (transpose S768x768 [1, 0] x transposes_S768x768_S768x768_1_0) bitsLt_bf16_f32
        : FVec Ideal S768x768 .bf16) (ix2 d e) = x (ix2 e d) :=
  transpose_ix2_apply x transposes_S768x768_S768x768_1_0 d e

/-- A vector of 768 entries given a leading unit axis reads, at `(0, e)`, the vector at `e`. -/
private theorem row_read (x : S768.Idx → EReal) (e : Fin 768) :
    shapeCast S1x768 x shapeCasts_S768_S1x768 (ix2 (0 : Fin 1) e) = x (ix1 e) :=
  shapeCast_a_1a_apply x shapeCasts_S768_S1x768 (0 : Fin 1) e

/-- The token array in the 16 x 768 x 1024 layout, as the region finds it: the argument reshaped. -/
theorem V_v9 (m : (ℓ : Loc nD τ sig) → Buf (Elt Ideal) ℓ) (c : Dev nD) :
    V m c main_v9 = shapeCast S16x768x1024 (m ((c.tc : Thread nD τ).loc main_arg0)) shapeCasts_S16x1024x768_S16x768x1024 := by
  show StableHlo.after hostOps0 (fun b => m (c, b)) (Proc.devRef .tc main_v9) = _
  after_results
  rfl

/-- Weight matrix of the queries: the region finds the transposed copy, so entry `(d, e)` of the block is entry `(e, d)` of the argument. -/
theorem wOf_v1 (m : (ℓ : Loc nD τ sig) → Buf (Elt Ideal) ℓ) (c : Dev nD) :
    wOf (V m c main_v1) = fun e d => m ((c.tc : Thread nD τ).loc main_arg1) (ix2 e d) := by
  have h : @Eq (FVec Ideal S768x768 .bf16) (V m c main_v1)
      (truncf .bf16 (transpose S768x768 [1, 0] (m ((c.tc : Thread nD τ).loc main_arg1) : FVec Ideal S768x768 .f32)
        transposes_S768x768_S768x768_1_0) bitsLt_bf16_f32) := by
    show StableHlo.after hostOps0 (fun b => m (c, b)) (Proc.devRef .tc main_v1) = _
    after_results
  funext e d
  exact (congrFun h (ix2 d e)).trans (transposed_read _ e d)

/-- Weight matrix of the keys: the region finds the transposed copy, so entry `(d, e)` of the block is entry `(e, d)` of the argument. -/
theorem wOf_v3 (m : (ℓ : Loc nD τ sig) → Buf (Elt Ideal) ℓ) (c : Dev nD) :
    wOf (V m c main_v3) = fun e d => m ((c.tc : Thread nD τ).loc main_arg3) (ix2 e d) := by
  have h : @Eq (FVec Ideal S768x768 .bf16) (V m c main_v3)
      (truncf .bf16 (transpose S768x768 [1, 0] (m ((c.tc : Thread nD τ).loc main_arg3) : FVec Ideal S768x768 .f32)
        transposes_S768x768_S768x768_1_0) bitsLt_bf16_f32) := by
    show StableHlo.after hostOps0 (fun b => m (c, b)) (Proc.devRef .tc main_v3) = _
    after_results
  funext e d
  exact (congrFun h (ix2 d e)).trans (transposed_read _ e d)

/-- Weight matrix of the values: the region finds the transposed copy, so entry `(d, e)` of the block is entry `(e, d)` of the argument. -/
theorem wOf_v5 (m : (ℓ : Loc nD τ sig) → Buf (Elt Ideal) ℓ) (c : Dev nD) :
    wOf (V m c main_v5) = fun e d => m ((c.tc : Thread nD τ).loc main_arg5) (ix2 e d) := by
  have h : @Eq (FVec Ideal S768x768 .bf16) (V m c main_v5)
      (truncf .bf16 (transpose S768x768 [1, 0] (m ((c.tc : Thread nD τ).loc main_arg5) : FVec Ideal S768x768 .f32)
        transposes_S768x768_S768x768_1_0) bitsLt_bf16_f32) := by
    show StableHlo.after hostOps0 (fun b => m (c, b)) (Proc.devRef .tc main_v5) = _
    after_results
  funext e d
  exact (congrFun h (ix2 d e)).trans (transposed_read _ e d)

/-- The bias read as one row: entry `(0, e)` of the block is entry `e` of the argument. -/
theorem bOf_v6 (m : (ℓ : Loc nD τ sig) → Buf (Elt Ideal) ℓ) (c : Dev nD) :
    bOf (V m c main_v6) = fun e => m ((c.tc : Thread nD τ).loc main_arg2) (ix1 e) := by
  have h : @Eq (FVec Ideal S1x768 .f32) (V m c main_v6)
      (shapeCast S1x768 (m ((c.tc : Thread nD τ).loc main_arg2) : FVec Ideal S768 .f32) shapeCasts_S768_S1x768) := by
    show StableHlo.after hostOps0 (fun b => m (c, b)) (Proc.devRef .tc main_v6) = _
    after_results
    rfl
  funext e
  exact (congrFun h (ix2 (0 : Fin 1) e)).trans (row_read _ e)

/-- The bias read as one row: entry `(0, e)` of the block is entry `e` of the argument. -/
theorem bOf_v7 (m : (ℓ : Loc nD τ sig) → Buf (Elt Ideal) ℓ) (c : Dev nD) :
    bOf (V m c main_v7) = fun e => m ((c.tc : Thread nD τ).loc main_arg4) (ix1 e) := by
  have h : @Eq (FVec Ideal S1x768 .f32) (V m c main_v7)
      (shapeCast S1x768 (m ((c.tc : Thread nD τ).loc main_arg4) : FVec Ideal S768 .f32) shapeCasts_S768_S1x768) := by
    show StableHlo.after hostOps0 (fun b => m (c, b)) (Proc.devRef .tc main_v7) = _
    after_results
    rfl
  funext e
  exact (congrFun h (ix2 (0 : Fin 1) e)).trans (row_read _ e)

/-- The bias read as one row: entry `(0, e)` of the block is entry `e` of the argument. -/
theorem bOf_v8 (m : (ℓ : Loc nD τ sig) → Buf (Elt Ideal) ℓ) (c : Dev nD) :
    bOf (V m c main_v8) = fun e => m ((c.tc : Thread nD τ).loc main_arg6) (ix1 e) := by
  have h : @Eq (FVec Ideal S1x768 .f32) (V m c main_v8)
      (shapeCast S1x768 (m ((c.tc : Thread nD τ).loc main_arg6) : FVec Ideal S768 .f32) shapeCasts_S768_S1x768) := by
    show StableHlo.after hostOps0 (fun b => m (c, b)) (Proc.devRef .tc main_v8) = _
    after_results
    rfl
  funext e
  exact (congrFun h (ix2 (0 : Fin 1) e)).trans (row_read _ e)

/-- The program's result: the array the region leaves, reshaped to 16 x 1024 x 768 by the one operation after it. -/
theorem tail_v11 (m : (ℓ : Loc nD τ sig) → Buf (Elt Ideal) ℓ) (c : Dev nD) :
    Pipeline.afterTail₀ cfgs (dats (F := Ideal) m) 0 (V0 m) [hostOps1] c main_v11
      = shapeCast S16x1024x768 ((dats (F := Ideal) m 0 c).arrAt 8 cfg0.N) shapeCasts_S16x768x1024_S16x1024x768 := by
  unfold Pipeline.afterTail₀
  show StableHlo.after hostOps1 _ (Proc.devRef .tc main_v11) = _
  after_results
  have h := Pipeline.withArrays_arr spec0 launch0.win.arr_inj c (V0 m c)
    (fun w => (dats (F := Ideal) m 0 c).arrAt w cfg0.N) 8
  funext i
  exact congrArg (fun x : FVec Ideal S16x768x1024 .f32 =>
    shapeCast S16x1024x768 x shapeCasts_S16x768x1024_S16x1024x768 i) h

end Cert.Attn

end
-- ==== Proof.Result.lean ====
/-
  The result both programs end with, as ONE function of the seven argument arrays.

  For batch element `b` the head's output `av` is a 1024 × 768 matrix (token by feature). Both programs lay it
  out transposed, 768 × 1024, add the input in a layout of the same extents, and read the sum as 1024 × 768
  again by row-major position. The kernel adds the input reshaped to 16 × 768 × 1024 and then reshapes the sum
  back; the reference reshapes the transposed output back and then adds the input as it is. A reshape moves
  no values, commutes with an entrywise sum, and undoes its inverse, so the two are one array.
-/
import proofs.«177509_j26268019982573_2_alg».proof.Proof.Block
import Idealize.ShloMosaic.Lib.Pipeline.Value

noncomputable section

open scoped BigOperators

namespace Cert.Attn

open Cert.KernelIdeal Idealize.ShloMosaic Idealize.ShloMosaic.ValueIdx

/-- The head's output in the transposed layout: at `(b, d, n)`, batch element `b`, token `n`, feature `d`. -/
def avT (X : FVec Ideal S16x1024x768 .f32) (Wq : FVec Ideal S768x768 .f32) (bq : FVec Ideal S768 .f32)
    (Wk : FVec Ideal S768x768 .f32) (bk : FVec Ideal S768 .f32) (Wv : FVec Ideal S768x768 .f32) (bv : FVec Ideal S768 .f32) :
    FVec Ideal S16x768x1024 .f32 :=
  fun i => head (fun n d => X (ix3 (i 0) n d)) (fun e d => Wq (ix2 e d)) (fun e => bq (ix1 e))
    (fun e d => Wk (ix2 e d)) (fun e => bk (ix1 e)) (fun e d => Wv (ix2 e d)) (fun e => bv (ix1 e)) (i 2) (i 1)

/-- The result: the transposed output plus the input reshaped, reshaped to 16 × 1024 × 768. -/
def result (X : FVec Ideal S16x1024x768 .f32) (Wq : FVec Ideal S768x768 .f32) (bq : FVec Ideal S768 .f32)
    (Wk : FVec Ideal S768x768 .f32) (bk : FVec Ideal S768 .f32) (Wv : FVec Ideal S768x768 .f32) (bv : FVec Ideal S768 .f32)
    (h : S16x1024x768.ShapeCasts S16x768x1024) (h' : S16x768x1024.ShapeCasts S16x1024x768) : FVec Ideal S16x1024x768 .f32 :=
  shapeCast S16x1024x768 (fun i => avT X Wq bq Wk bk Wv bv i + shapeCast S16x768x1024 X h i) h'

/-- Reshaping back first and adding the input afterwards gives the same array. -/
theorem result_eq (X : FVec Ideal S16x1024x768 .f32) (Wq : FVec Ideal S768x768 .f32) (bq : FVec Ideal S768 .f32)
    (Wk : FVec Ideal S768x768 .f32) (bk : FVec Ideal S768 .f32) (Wv : FVec Ideal S768x768 .f32) (bv : FVec Ideal S768 .f32)
    (h : S16x1024x768.ShapeCasts S16x768x1024) (h' : S16x768x1024.ShapeCasts S16x1024x768) :
    result X Wq bq Wk bk Wv bv h h'
      = fun j => shapeCast S16x1024x768 (avT X Wq bq Wk bk Wv bv) h' j + X j := by
  funext j
  have e := congrFun (shapeCast_shapeCast X h h') j
  unfold result
  show avT X Wq bq Wk bk Wv bv (Shape.reshapeEquiv h' j) + shapeCast S16x768x1024 X h (Shape.reshapeEquiv h' j) = _
  exact congrArg (avT X Wq bq Wk bk Wv bv (Shape.reshapeEquiv h' j) + ·) e

end Cert.Attn

end
-- ==== Proof.KernelValue.lean ====
/-
  The kernel's program ends with `result` of its arguments.

  The region leaves, batch element by batch element, the head's output transposed plus the input reshaped to
  16 × 768 × 1024; the weights reach the kernel transposed and the biases as single rows, which the head reads
  back as the matrices and vectors they came from. One reshape after the region gives the result.
-/
import proofs.«177509_j26268019982573_2_alg».proof.Proof.Cover
import proofs.«177509_j26268019982573_2_alg».proof.Proof.HostSide
import proofs.«177509_j26268019982573_2_alg».proof.Proof.Result

noncomputable section

namespace Cert.Attn

open Cert.KernelIdeal Cert.KernelIdeal.Gen Idealize.ShloMosaic Idealize.ShloMosaic.ValueIdx Idealize.SL.Sem

/-- The array the region leaves: the transposed head output plus the reshaped input. -/
theorem region_value (m : (ℓ : Loc nD τ sig) → Buf (Elt Ideal) ℓ) (c : Dev nD) :
    (dats (F := Ideal) m 0 c).arrAt 8 cfg0.N
      = fun i => avT (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) i
          + shapeCast S16x768x1024 (m ((c.tc : Thread nD τ).loc main_arg0)) shapeCasts_S16x1024x768_S16x768x1024 i := by
  rw [region_array, V_main_arg0, V_v9]
  funext i
  unfold regionOut blockOut avT
  rw [wOf_v1, wOf_v3, wOf_v5, bOf_v6, bOf_v7, bOf_v8]
  have e : batchR (shapeCast S16x768x1024 (m ((c.tc : Thread nD τ).loc main_arg0)) shapeCasts_S16x1024x768_S16x768x1024) (i 0)
      (ix3 (0 : Fin 1) (i 1) (i 2))
      = shapeCast S16x768x1024 (m ((c.tc : Thread nD τ).loc main_arg0)) shapeCasts_S16x1024x768_S16x768x1024 i :=
    congrArg (shapeCast S16x768x1024 (m ((c.tc : Thread nD τ).loc main_arg0)) shapeCasts_S16x1024x768_S16x768x1024) (eq_ix3 i).symm
  rw [e]
  rfl

/-- Every weakly fair execution of the kernel's program terminates with its result buffer at `result` of the
    arguments and the arguments unchanged. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v11)
          = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) shapeCasts_S16x1024x768_S16x768x1024 shapeCasts_S16x768x1024_S16x1024x768
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨
      ((h c).2 main_v11 (Pipeline.mem_restRefs_of main_v11 (by decide) (by decide))).trans
        ((tail_v11 m c).trans (by rw [region_value]; rfl)),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.Attn

end
-- ==== Proof.RefSpec.lean ====
/-
  The reference program's attention output, read at one entry.

  The reference computes, for every batch element, the three dense layers, the scaled scores, a softmax along the key
  axis and the mix of the value rows. Each of its operations writes an array whose entry depends on finitely many
  entries of its operands; reading the operations one after another at the coordinates (batch, token, feature) gives
  back, stage by stage, the row-wise description of attention: a dense layer's row is `linRow`, the scores of one
  query are `scoreRow`, their maximum is `rowMax`, the shifted exponentials `expRow`, their quotient by their sum
  `softRow`, and the weighted sum of the value rows `mixRow`. The result is `head` of batch element `b` at token `n`
  and feature `d`.

  Two small facts about the extended reals are used: the maximum with minus infinity is the other operand (the
  reference takes such a maximum after its reduction), and a sum started from zero is the sum.
-/
import proofs.«177509_j26268019982573_2_alg».proof.Proof.Gen.ReferenceIdeal.Read
import proofs.«177509_j26268019982573_2_alg».proof.Proof.Spec
import Idealize.ShloMosaic.PureOps.Ideal.Laws

noncomputable section

open scoped BigOperators

namespace Cert.Attn

open Cert.ReferenceIdeal Cert.ReferenceIdeal.Read Idealize.ShloMosaic Idealize.ShloMosaic.ValueIdx

variable [Cert.ReferenceIdeal.Facts]

/-! ## The operands as matrices and vectors -/

/-- Batch element `b` of the input, as a matrix of token rows. -/
private abbrev rX (x0 : FVec Ideal S16x1024x768 .f32) (b : Fin 16) : Mat 1024 768 := fun n d => x0 (ix3 b n d)

/-- A weight array as a matrix: row `e` is output feature `e`. -/
private abbrev rW (w : FVec Ideal S768x768 .f32) : Mat 768 768 := fun e d => w (ix2 e d)

/-- A bias array as a vector. -/
private abbrev rB (v : FVec Ideal S768 .f32) : Fin 768 → EReal := fun e => v (ix1 e)

/-- The queries of token `n` in batch element `b`. -/
private abbrev rQ (x0 : FVec Ideal S16x1024x768 .f32) (x1 : FVec Ideal S768x768 .f32) (x2 : FVec Ideal S768 .f32)
    (b : Fin 16) (n : Fin 1024) : Fin 768 → EReal := linRow (rX x0 b n) (rW x1) (rB x2)

/-- The keys (or the values) of batch element `b`, one row per token. -/
private abbrev rK (x0 : FVec Ideal S16x1024x768 .f32) (x3 : FVec Ideal S768x768 .f32) (x4 : FVec Ideal S768 .f32)
    (b : Fin 16) : Mat 1024 768 := fun j => linRow (rX x0 b j) (rW x3) (rB x4)

/-- The scores of token `n` in batch element `b` against every key. -/
private abbrev rS (x0 : FVec Ideal S16x1024x768 .f32) (x1 : FVec Ideal S768x768 .f32) (x2 : FVec Ideal S768 .f32)
    (x3 : FVec Ideal S768x768 .f32) (x4 : FVec Ideal S768 .f32) (b : Fin 16) (n : Fin 1024) : Fin 1024 → EReal :=
  scoreRow (rQ x0 x1 x2 b n) (rK x0 x3 x4 b)

/-! ## Where each operation reads its operands, at the coordinates (batch, token, feature) -/

private theorem lidx_dense (b : Fin 16) (n : Fin 1024) (e k : Fin 768) : lidx_main_v0 (ix3 b n e) k = ix3 b n k :=
  funext fun a => Fin.ext (by match a with | ⟨0, _⟩ => rfl | ⟨1, _⟩ => rfl | ⟨2, _⟩ => rfl)

private theorem ridx_dense (b : Fin 16) (n : Fin 1024) (e k : Fin 768) : ridx_main_v0 (ix3 b n e) k = ix2 e k :=
  funext fun a => Fin.ext (by match a with | ⟨0, _⟩ => rfl | ⟨1, _⟩ => rfl)

private theorem idx_bias (b : Fin 16) (n : Fin 1024) (e : Fin 768) : idx_main_v1 (idx_main_v2 (ix3 b n e)) = ix1 e :=
  funext fun a => Fin.ext (by match a with | ⟨0, _⟩ => rfl)

private theorem lidx_scores (b : Fin 16) (n j : Fin 1024) (k : Fin 768) : lidx_main_v12 (ix3 b n j) k = ix3 b n k :=
  funext fun a => Fin.ext (by match a with | ⟨0, _⟩ => rfl | ⟨1, _⟩ => rfl | ⟨2, _⟩ => rfl)

private theorem ridx_scores (b : Fin 16) (n j : Fin 1024) (k : Fin 768) : ridx_main_v12 (ix3 b n j) k = ix3 b j k :=
  funext fun a => Fin.ext (by match a with | ⟨0, _⟩ => rfl | ⟨1, _⟩ => rfl | ⟨2, _⟩ => rfl)

private theorem idx_max (b : Fin 16) (n j : Fin 1024) : idx_main_v18 (idx_main_v19 (ix3 b n j)) = ix2 b n :=
  funext fun a => Fin.ext (by match a with | ⟨0, _⟩ => rfl | ⟨1, _⟩ => rfl)

private theorem idx_sum (b : Fin 16) (n k : Fin 1024) : idx_main_v22 (ix2 b n) k = ix3 b n k :=
  funext fun a => Fin.ext (by match a with | ⟨0, _⟩ => rfl | ⟨1, _⟩ => rfl | ⟨2, _⟩ => rfl)

private theorem idx_den (b : Fin 16) (n j : Fin 1024) : idx_main_v23 (idx_main_v24 (ix3 b n j)) = ix2 b n :=
  funext fun a => Fin.ext (by match a with | ⟨0, _⟩ => rfl | ⟨1, _⟩ => rfl)

private theorem lidx_mix (b : Fin 16) (n : Fin 1024) (d : Fin 768) (k : Fin 1024) : lidx_main_v26 (ix3 b n d) k = ix3 b n k :=
  funext fun a => Fin.ext (by match a with | ⟨0, _⟩ => rfl | ⟨1, _⟩ => rfl | ⟨2, _⟩ => rfl)

private theorem ridx_mix (b : Fin 16) (n : Fin 1024) (d : Fin 768) (k : Fin 1024) : ridx_main_v26 (ix3 b n d) k = ix3 b k d :=
  funext fun a => Fin.ext (by match a with | ⟨0, _⟩ => rfl | ⟨1, _⟩ => rfl | ⟨2, _⟩ => rfl)

/-- The index over (batch, token) whose coordinate on the key axis is `k`. -/
private theorem lift_keys (h : S16x1024x1024.Reduces [2] S16x1024) (b : Fin 16) (n : Fin 1024) (k : Fin (S16x1024x1024.size 2)) :
    h.lift (ix2 b n) k = ix3 b n (⟨k.val, k.isLt⟩ : Fin 1024) := by
  funext c; apply Fin.ext
  fin_cases c <;> rfl

/-! ## The dense layers -/

/-- A dense layer's output at (b, n, e): the contraction of token row `n` with weight row `e`, plus the bias at `e`. -/
private theorem dense_apply (x0 : FVec Ideal S16x1024x768 .f32) (w : FVec Ideal S768x768 .f32) (v : FVec Ideal S768 .f32)
    (D B : FVec Ideal S16x1024x768 .f32)
    (hD : ∀ i, D i = ∑ k : Fin 768, x0 (lidx_main_v0 i k) * w (ridx_main_v0 i k))
    (hB : ∀ i, B i = v (idx_main_v1 (idx_main_v2 i)))
    (b : Fin 16) (n : Fin 1024) (e : Fin 768) :
    D (ix3 b n e) + B (ix3 b n e) = linRow (rX x0 b n) (rW w) (rB v) e := by
  rw [hD, hB]
  unfold linRow
  refine congrArg₂ (· + ·) (Finset.sum_congr rfl fun k _ => ?_) (congrArg v (idx_bias b n e))
  exact congrArg₂ (· * ·) (congrArg x0 (lidx_dense b n e k)) (congrArg w (ridx_dense b n e k))

/-- The queries. -/
theorem ref_q_apply (x0 : FVec Ideal S16x1024x768 .f32) (x1 : FVec Ideal S768x768 .f32) (x2 : FVec Ideal S768 .f32)
    (b : Fin 16) (n : Fin 1024) (e : Fin 768) :
    val_main_v3 (F := Ideal) x0 x1 x2 (ix3 b n e) = linRow (rX x0 b n) (rW x1) (rB x2) e := by
  rw [val_main_v3_apply, Ideal.addf_def]
  exact dense_apply x0 x1 x2 _ _ (val_main_v0_apply x0 x1)
    (fun i => (val_main_v2_apply (F := Ideal) x2 i).trans (val_main_v1_apply (F := Ideal) x2 _)) b n e

/-- The keys. -/
theorem ref_k_apply (x0 : FVec Ideal S16x1024x768 .f32) (x3 : FVec Ideal S768x768 .f32) (x4 : FVec Ideal S768 .f32)
    (b : Fin 16) (n : Fin 1024) (e : Fin 768) :
    val_main_v7 (F := Ideal) x0 x3 x4 (ix3 b n e) = linRow (rX x0 b n) (rW x3) (rB x4) e := by
  rw [val_main_v7_apply, Ideal.addf_def]
  exact dense_apply x0 x3 x4 _ _ (val_main_v4_apply x0 x3)
    (fun i => (val_main_v6_apply (F := Ideal) x4 i).trans (val_main_v5_apply (F := Ideal) x4 _)) b n e

/-- The values. -/
theorem ref_v_apply (x0 : FVec Ideal S16x1024x768 .f32) (x5 : FVec Ideal S768x768 .f32) (x6 : FVec Ideal S768 .f32)
    (b : Fin 16) (n : Fin 1024) (e : Fin 768) :
    val_main_v11 (F := Ideal) x0 x5 x6 (ix3 b n e) = linRow (rX x0 b n) (rW x5) (rB x6) e := by
  rw [val_main_v11_apply, Ideal.addf_def]
  exact dense_apply x0 x5 x6 _ _ (val_main_v8_apply x0 x5)
    (fun i => (val_main_v10_apply (F := Ideal) x6 i).trans (val_main_v9_apply (F := Ideal) x6 _)) b n e

/-! ## The scores -/

/-- The scaled score of query `n` against key `j`. -/
theorem ref_scores_apply (x0 : FVec Ideal S16x1024x768 .f32) (x1 : FVec Ideal S768x768 .f32) (x2 : FVec Ideal S768 .f32)
    (x3 : FVec Ideal S768x768 .f32) (x4 : FVec Ideal S768 .f32) (b : Fin 16) (n j : Fin 1024) :
    val_main_v14 (F := Ideal) x0 x1 x2 x3 x4 (ix3 b n j) = rS x0 x1 x2 x3 x4 b n j := by
  rw [val_main_v14_apply, val_main_v12_apply, val_main_v13_apply, val_main_cst_apply, Ideal.mulf_def, Ideal.ofBits_def]
  show _ = (∑ e : Fin 768, rQ x0 x1 x2 b n e * rK x0 x3 x4 b j e) * Ideal.ofBits .f32 0x3D13CD3A#32
  refine congrArg (fun s => s * Ideal.ofBits .f32 0x3D13CD3A#32) (Finset.sum_congr rfl fun k _ => ?_)
  exact congrArg₂ (· * ·)
    ((congrArg (val_main_v3 (F := Ideal) x0 x1 x2) (lidx_scores b n j k)).trans (ref_q_apply x0 x1 x2 b n k))
    ((congrArg (val_main_v7 (F := Ideal) x0 x3 x4) (ridx_scores b n j k)).trans (ref_k_apply x0 x3 x4 b j k))

/-! ## The maximum of a row of scores -/

/-- The maximum with minus infinity is the other operand. -/
private theorem max_negInf (y : EReal) : max (Ideal.ofBits .f32 0xFF800000#32) y = y := by
  simp [Ideal.ofBits, Ideal.ieee]

/-- The reference's row maximum: a fold from minus infinity over the keys, then one more maximum with minus infinity. -/
theorem ref_rowMax_apply (x0 : FVec Ideal S16x1024x768 .f32) (x1 : FVec Ideal S768x768 .f32) (x2 : FVec Ideal S768 .f32)
    (x3 : FVec Ideal S768x768 .f32) (x4 : FVec Ideal S768 .f32) (b : Fin 16) (n : Fin 1024) :
    val_main_v17 (F := Ideal) x0 x1 x2 x3 x4 (ix2 b n) = rowMax (rS x0 x1 x2 x3 x4 b n) := by
  have h : S16x1024x1024.Reduces [2] S16x1024 := by decide
  rw [val_main_v17_apply, val_main_v16_apply, val_main_cst_1_apply, Ideal.maximumf_def, Ideal.ofBits_def, max_negInf]
  unfold val_main_v15
  rw [Host.reduce_eq_fold_single FloatOps.maximumf _ _ Gen.reducesTo_S16x1024x1024_S16x1024_d2 h Gen.h_S_]
  unfold rowMax
  have hf : (val_main_v14 (F := Ideal) x0 x1 x2 x3 x4 ∘ h.lift (ix2 b n)) = fun k : Fin 1024 => rS x0 x1 x2 x3 x4 b n k :=
    funext fun k => (congrArg (val_main_v14 (F := Ideal) x0 x1 x2 x3 x4) (lift_keys h b n k)).trans
      (ref_scores_apply x0 x1 x2 x3 x4 b n ⟨k.val, k.isLt⟩)
  exact congrArg (fun f => Finset.fold max (Ideal.ofBits .f32 0xFF800000#32) f (Finset.univ : Finset (Fin 1024))) hf

/-! ## The softmax -/

/-- The exponential of a score shifted by its row's maximum. -/
theorem ref_exp_apply (x0 : FVec Ideal S16x1024x768 .f32) (x1 : FVec Ideal S768x768 .f32) (x2 : FVec Ideal S768 .f32)
    (x3 : FVec Ideal S768x768 .f32) (x4 : FVec Ideal S768 .f32) (b : Fin 16) (n j : Fin 1024) :
    val_main_v21 (F := Ideal) x0 x1 x2 x3 x4 (ix3 b n j) = expRow (rS x0 x1 x2 x3 x4 b n) j := by
  rw [val_main_v21_apply, val_main_v20_apply, val_main_v19_apply, val_main_v18_apply, Ideal.hostUnary_exp_def,
    Ideal.subf_def, idx_max b n j, ref_rowMax_apply, ref_scores_apply]
  rfl

/-- The sum of a row of exponentials: the reference starts its sum from zero. -/
theorem ref_sum_apply (x0 : FVec Ideal S16x1024x768 .f32) (x1 : FVec Ideal S768x768 .f32) (x2 : FVec Ideal S768 .f32)
    (x3 : FVec Ideal S768x768 .f32) (x4 : FVec Ideal S768 .f32) (b : Fin 16) (n : Fin 1024) :
    val_main_v22 (F := Ideal) x0 x1 x2 x3 x4 (ix2 b n) = ∑ j : Fin 1024, expRow (rS x0 x1 x2 x3 x4 b n) j := by
  rw [val_main_v22_apply, val_main_cst_2_apply, Ideal.ofBits_def, Ideal.ofBits_zero_f32, zero_add]
  refine Finset.sum_congr rfl fun k _ => ?_
  exact (congrArg (val_main_v21 (F := Ideal) x0 x1 x2 x3 x4) (idx_sum b n k)).trans (ref_exp_apply x0 x1 x2 x3 x4 b n k)

/-- The softmax weight of key `j` for query `n`. -/
theorem ref_soft_apply (x0 : FVec Ideal S16x1024x768 .f32) (x1 : FVec Ideal S768x768 .f32) (x2 : FVec Ideal S768 .f32)
    (x3 : FVec Ideal S768x768 .f32) (x4 : FVec Ideal S768 .f32) (b : Fin 16) (n j : Fin 1024) :
    val_main_v25 (F := Ideal) x0 x1 x2 x3 x4 (ix3 b n j) = softRow (rS x0 x1 x2 x3 x4 b n) j := by
  rw [val_main_v25_apply, val_main_v24_apply, val_main_v23_apply, Ideal.hostDivf_def, idx_den b n j, ref_sum_apply,
    ref_exp_apply]
  rfl

/-! ## The mix of the value rows -/

/-- The reference's attention output at (b, n, d) is one head's output for batch element `b` at token `n`, feature `d`. -/
theorem ref_av_apply (x0 : FVec Ideal S16x1024x768 .f32) (x1 : FVec Ideal S768x768 .f32) (x2 : FVec Ideal S768 .f32)
    (x3 : FVec Ideal S768x768 .f32) (x4 : FVec Ideal S768 .f32) (x5 : FVec Ideal S768x768 .f32) (x6 : FVec Ideal S768 .f32)
    (b : Fin 16) (n : Fin 1024) (d : Fin 768) :
    val_main_v26 (F := Ideal) x0 x1 x2 x3 x4 x5 x6 (ix3 b n d)
      = head (fun n' d' => x0 (ix3 b n' d')) (fun e d' => x1 (ix2 e d')) (fun e => x2 (ix1 e))
          (fun e d' => x3 (ix2 e d')) (fun e => x4 (ix1 e)) (fun e d' => x5 (ix2 e d')) (fun e => x6 (ix1 e)) n d := by
  rw [val_main_v26_apply]
  unfold head attendRow mixRow
  refine Finset.sum_congr rfl fun k _ => ?_
  exact congrArg₂ (· * ·)
    ((congrArg (val_main_v25 (F := Ideal) x0 x1 x2 x3 x4) (lidx_mix b n d k)).trans (ref_soft_apply x0 x1 x2 x3 x4 b n k))
    ((congrArg (val_main_v11 (F := Ideal) x0 x5 x6) (ridx_mix b n d k)).trans (ref_v_apply x0 x5 x6 b k d))

end Cert.Attn

end
-- ==== Proof.RefValue.lean ====
/-
  The reference program ends with `result` of its arguments.

  Its last three operations transpose the head's output to 16 × 768 × 1024, reshape that to 16 × 1024 × 768 and
  add the input. The transposed output at `(b, d, n)` is the head's output at `(b, n, d)`, which is `avT` there.
-/
import proofs.«177509_j26268019982573_2_alg».proof.Proof.Gen.ReferenceIdeal.Read
import proofs.«177509_j26268019982573_2_alg».proof.Proof.RefSpec
import proofs.«177509_j26268019982573_2_alg».proof.Proof.Result

noncomputable section

open scoped BigOperators

namespace Cert.Attn

open Idealize.ShloMosaic Idealize.ShloMosaic.ValueIdx Idealize.SL.Sem

/-- The reference's transposed attention output is `avT`. -/
theorem ref_avT (x0 : FVec Ideal Cert.ReferenceIdeal.S16x1024x768 .f32) (x1 : FVec Ideal Cert.ReferenceIdeal.S768x768 .f32)
    (x2 : FVec Ideal Cert.ReferenceIdeal.S768 .f32) (x3 : FVec Ideal Cert.ReferenceIdeal.S768x768 .f32)
    (x4 : FVec Ideal Cert.ReferenceIdeal.S768 .f32) (x5 : FVec Ideal Cert.ReferenceIdeal.S768x768 .f32)
    (x6 : FVec Ideal Cert.ReferenceIdeal.S768 .f32) (i : Cert.ReferenceIdeal.S16x768x1024.Idx) :
    Cert.ReferenceIdeal.Read.val_main_v27 (F := Ideal) x0 x1 x2 x3 x4 x5 x6 i = avT x0 x1 x2 x3 x4 x5 x6 i := by
  rw [Cert.ReferenceIdeal.Read.val_main_v27_apply]
  have e : Cert.ReferenceIdeal.Read.idx_main_v27 i = ix3 (i 0) (i 2) (i 1) :=
    funext fun a => Fin.ext (by match a with | ⟨0, _⟩ => rfl | ⟨1, _⟩ => rfl | ⟨2, _⟩ => rfl)
  rw [e]
  exact ref_av_apply x0 x1 x2 x3 x4 x5 x6 (i 0) (i 2) (i 1)

/-- The reference's result is `result` of its arguments. -/
theorem ref_result (m : (ℓ : Loc Cert.ReferenceIdeal.nD Cert.ReferenceIdeal.τ Cert.ReferenceIdeal.sig) → Buf (Elt Ideal) ℓ)
    (c : Dev Cert.ReferenceIdeal.nD)
    (h : Cert.KernelIdeal.S16x1024x768.ShapeCasts Cert.KernelIdeal.S16x768x1024)
    (h' : Cert.KernelIdeal.S16x768x1024.ShapeCasts Cert.KernelIdeal.S16x1024x768) :
    Cert.ReferenceIdeal.Value.res_main_v29 (F := Ideal) m c
      = result (m ((c.tc : Thread Cert.ReferenceIdeal.nD Cert.ReferenceIdeal.τ).loc Cert.ReferenceIdeal.main_arg0))
          (m ((c.tc : Thread Cert.ReferenceIdeal.nD Cert.ReferenceIdeal.τ).loc Cert.ReferenceIdeal.main_arg1))
          (m ((c.tc : Thread Cert.ReferenceIdeal.nD Cert.ReferenceIdeal.τ).loc Cert.ReferenceIdeal.main_arg2))
          (m ((c.tc : Thread Cert.ReferenceIdeal.nD Cert.ReferenceIdeal.τ).loc Cert.ReferenceIdeal.main_arg3))
          (m ((c.tc : Thread Cert.ReferenceIdeal.nD Cert.ReferenceIdeal.τ).loc Cert.ReferenceIdeal.main_arg4))
          (m ((c.tc : Thread Cert.ReferenceIdeal.nD Cert.ReferenceIdeal.τ).loc Cert.ReferenceIdeal.main_arg5))
          (m ((c.tc : Thread Cert.ReferenceIdeal.nD Cert.ReferenceIdeal.τ).loc Cert.ReferenceIdeal.main_arg6)) h h' := by
  rw [Cert.ReferenceIdeal.Read.val_main_v29_eq, result_eq]
  funext j
  rw [Cert.ReferenceIdeal.Read.val_main_v29_apply]
  refine congrArg (· + _) ?_
  unfold Cert.ReferenceIdeal.Read.val_main_v28
  exact ref_avT _ _ _ _ _ _ _ (Shape.reshapeEquiv h' j)

end Cert.Attn

end
-- ==== Proof.lean ====
/-
  The certificate: a Pallas attention block against its jnp reference, over the extended reals.

  Per batch element both programs compute one attention head on a 1024 × 768 matrix of tokens: three dense
  layers (queries, keys, values), scaled inner products of every query with every key, a softmax along the key
  axis, the weighted mix of the values, and finally the mix transposed, added to the input, and read back as
  1024 × 768. The kernel does it in one launch over the 16 batch elements, attention in four chunks of 256 query
  rows, adding the input in a reshaped layout before the final reshape; the reference does it with whole-array
  operations, reshaping first and adding the input last. The two results are the same function of the seven
  argument arrays (`Cert.Attn.result`): sums and maxima are taken over the same finite families, the scale is the
  same 32-bit word on both sides, and a reshape commutes with an entrywise sum. No finiteness of the inputs is
  used.

  The three frame claims are the generated frames of the two kernel programs and the reference's generated run;
  the idealization rewrote nothing, so `preserves` is trivial.
-/
import proofs.«177509_j26268019982573_2_alg».proof.Defs
import proofs.«177509_j26268019982573_2_alg».proof.Proof.Gen.Kernel
import proofs.«177509_j26268019982573_2_alg».proof.Proof.Gen.Kernel.Skeleton
import proofs.«177509_j26268019982573_2_alg».proof.Proof.Gen.Kernel.Loops
import proofs.«177509_j26268019982573_2_alg».proof.Proof.Gen.Kernel.Launch
import proofs.«177509_j26268019982573_2_alg».proof.Proof.Gen.Kernel.Points
import proofs.«177509_j26268019982573_2_alg».proof.Proof.Gen.Kernel.Frame
import proofs.«177509_j26268019982573_2_alg».proof.Proof.Gen.KernelIdeal
import proofs.«177509_j26268019982573_2_alg».proof.Proof.Gen.KernelIdeal.Skeleton
import proofs.«177509_j26268019982573_2_alg».proof.Proof.Gen.KernelIdeal.Loops
import proofs.«177509_j26268019982573_2_alg».proof.Proof.Gen.KernelIdeal.Launch
import proofs.«177509_j26268019982573_2_alg».proof.Proof.Gen.KernelIdeal.Points
import proofs.«177509_j26268019982573_2_alg».proof.Proof.Gen.KernelIdeal.Frame
import proofs.«177509_j26268019982573_2_alg».proof.Proof.Gen.ReferenceIdeal
import proofs.«177509_j26268019982573_2_alg».proof.Proof.Gen.ReferenceIdeal.Run
import proofs.«177509_j26268019982573_2_alg».proof.Proof.Gen.ReferenceIdeal.Read
import proofs.«177509_j26268019982573_2_alg».proof.Proof.Gen.Pre_finite_inputs
import proofs.«177509_j26268019982573_2_alg».proof.Proof.KernelValue
import proofs.«177509_j26268019982573_2_alg».proof.Proof.RefValue
import Idealize.ShloMosaic.Adequacy
import Idealize.ShloMosaic.Init

noncomputable section

namespace Cert.Proof

open Idealize.ShloMosaic Idealize.SL.Sem

/-- The kernel's program as printed runs, and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both idealized programs end with `Cert.Attn.result` of the arguments. -/
theorem algebraic : Cert.algebraic_KernelIdeal_ReferenceIdeal := by
  intro m ρ m' ρ' _ hagree
  refine ⟨_, Cert.Attn.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.Attn.ref_result m' c Cert.KernelIdeal.Gen.shapeCasts_S16x1024x768_S16x768x1024
    Cert.KernelIdeal.Gen.shapeCasts_S16x768x1024_S16x1024x768]
  rw [(hagree c).1, (hagree c).2.1, (hagree c).2.2.1, (hagree c).2.2.2.1, (hagree c).2.2.2.2.1,
    (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
